-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S8x20x512 : Shape := ⟨3, ![8, 20, 512]⟩
abbrev S8x1x20 : Shape := ⟨3, ![8, 1, 20]⟩
abbrev S8x20x8192 : Shape := ⟨3, ![8, 20, 8192]⟩
abbrev S512x512 : Shape := ⟨2, ![512, 512]⟩
abbrev S512 : Shape := ⟨1, ![512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x20x512 : S_.BroadcastsInDim S8x20x512 (![] : Fin 0 → Fin S8x20x512.rank)
  reducesTo_S8x20x512_S_d0_1_2 : S8x20x512.ReducesTo [0, 1, 2] S_
  bcast_S_S8x1x20 : S_.BroadcastsInDim S8x1x20 (![] : Fin 0 → Fin S8x1x20.rank)
  reducesTo_S8x1x20_S_d0_1_2 : S8x1x20.ReducesTo [0, 1, 2] S_
  bcast_S_S8x20x8192 : S_.BroadcastsInDim S8x20x8192 (![] : Fin 0 → Fin S8x20x8192.rank)
  reducesTo_S8x20x8192_S_d0_1_2 : S8x20x8192.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x512 .f32) (main_arg8 : FVec F S512 .f32) (main_arg9 : FVec F S512x512 .f32) (main_arg10 : FVec F S512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x512 .f32 := Host.absf main_arg9
  let main_cst_16 : FVec F S_ .f32 := constant S_ .f32 0x7F800000#32
  let main_v45 : FVec F S512x512 .f32 := broadcastInDim S512x512 ![] bcast_S_S512x512 main_cst_16
  let main_v46 : IVec S512x512 1 := cmpf .olt main_v44 main_v45
  let main_c_17 : IVec S_ 1 := constantI S_ 1 1#1
  let main_v47 : IVec S_ 1 := (fun x v => Host.reduce IntOp.andi x v reducesTo_S512x512_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S8x20x8192 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) (main_v13 : IVec S_ 1) (main_v16 : IVec S8x1x20 1) : IVec S_ 1 :=
  let main_c_5 : IVec S_ 1 := constantI S_ 1 1#1
  let main_v17 : IVec S_ 1 := (fun x v => Host.reduce IntOp.andi x v reducesTo_S8x1x20_S_d0_1_2 h_S_) main_v16 main_c_5
  let main_v18 : IVec S_ 1 := andi main_v13 main_v17
  let main_v19 : FVec F S8x20x8192 .f32 := Host.absf main_arg4
  let main_cst_6 : FVec F S_ .f32 := constant S_ .f32 0x7F800000#32
  let main_v20 : FVec F S8x20x8192 .f32 := broadcastInDim S8x20x8192 ![] bcast_S_S8x20x8192 main_cst_6
  let main_v21 : IVec S8x20x8192 1 := cmpf .olt main_v19 main_v20
  let main_c_7 : IVec S_ 1 := constantI S_ 1 1#1
  let main_v22 : IVec S_ 1 := (fun x v => Host.reduce IntOp.andi x v reducesTo_S8x20x8192_S_d0_1_2 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x8192x512 .f32) (main_arg1 : FVec F S8x20x512 .f32) (main_arg2 : FVec F S8x20x512 .f32) (main_arg3 : FVec F S8x1x20 .f32) (main_arg4 : FVec F S8x20x8192 .f32) (main_arg5 : FVec F S512x512 .f32) (main_arg6 : FVec F S512 .f32) (main_arg7 : FVec F S512x512 .f32) (main_arg8 : FVec F S512 .f32) (main_arg9 : FVec F S512x512 .f32) (main_arg10 : FVec F S512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x20x512 .f32 := Host.absf main_arg1
  let main_cst_0 : FVec F S_ .f32 := constant S_ .f32 0x7F800000#32
  let main_v5 : FVec F S8x20x512 .f32 := broadcastInDim S8x20x512 ![] bcast_S_S8x20x512 main_cst_0
  let main_v6 : IVec S8x20x512 1 := cmpf .olt main_v4 main_v5
  let main_c_1 : IVec S_ 1 := constantI S_ 1 1#1
  let main_v7 : IVec S_ 1 := (fun x v => Host.reduce IntOp.andi x v reducesTo_S8x20x512_S_d0_1_2 h_S_) main_v6 main_c_1
  let main_v8 : IVec S_ 1 := andi main_v3 main_v7
  let main_v9 : FVec F S8x20x512 .f32 := Host.absf main_arg2
  let main_cst_2 : FVec F S_ .f32 := constant S_ .f32 0x7F800000#32
  let main_v10 : FVec F S8x20x512 .f32 := broadcastInDim S8x20x512 ![] bcast_S_S8x20x512 main_cst_2
  let main_v11 : IVec S8x20x512 1 := cmpf .olt main_v9 main_v10
  let main_c_3 : IVec S_ 1 := constantI S_ 1 1#1
  let main_v12 : IVec S_ 1 := (fun x v => Host.reduce IntOp.andi x v reducesTo_S8x20x512_S_d0_1_2 h_S_) main_v11 main_c_3
  let main_v13 : IVec S_ 1 := andi main_v8 main_v12
  let main_v14 : FVec F S8x1x20 .f32 := Host.absf main_arg3
  let main_cst_4 : FVec F S_ .f32 := constant S_ .f32 0x7F800000#32
  let main_v15 : FVec F S8x1x20 .f32 := broadcastInDim S8x1x20 ![] bcast_S_S8x1x20 main_cst_4
  let main_v16 : IVec S8x1x20 1 := cmpf .olt main_v14 main_v15
  fn_part1 (F := F) main_arg4 main_arg5 main_arg6 main_arg7 main_arg8 main_arg9 main_arg10 main_v13 main_v16
-- ==== Kernel.lean ====
abbrev S8x8192x512 : Shape := ⟨3, ![8, 8192, 512]⟩
abbrev S8x20x512 : Shape := ⟨3, ![8, 20, 512]⟩
abbrev S8x1x20 : Shape := ⟨3, ![8, 1, 20]⟩
abbrev S8x20x8192 : Shape := ⟨3, ![8, 20, 8192]⟩
abbrev S512x512 : Shape := ⟨2, ![512, 512]⟩
abbrev S512 : Shape := ⟨1, ![512]⟩
abbrev S1x512 : Shape := ⟨2, ![1, 512]⟩
abbrev S1x20x512 : Shape := ⟨3, ![1, 20, 512]⟩
abbrev S20x512 : Shape := ⟨2, ![20, 512]⟩
abbrev S8x8192x20 : Shape := ⟨3, ![8, 8192, 20]⟩
abbrev S1x1024x512 : Shape := ⟨3, ![1, 1024, 512]⟩
abbrev S1x1x20 : Shape := ⟨3, ![1, 1, 20]⟩
abbrev S1x1024x20 : Shape := ⟨3, ![1, 1024, 20]⟩
abbrev S1024x512 : Shape := ⟨2, ![1024, 512]⟩
abbrev S512x20 : Shape := ⟨2, ![512, 20]⟩
abbrev S1024x20 : Shape := ⟨2, ![1024, 20]⟩
abbrev S1x20 : Shape := ⟨2, ![1, 20]⟩
abbrev S1024 : Shape := ⟨1, ![1024]⟩
abbrev S1024x1 : Shape := ⟨2, ![1024, 1]⟩

abbrev nBuf : Space → Nat
  | .hbm => 18
  | .vmem => 26
  | .smem => 0
  | _ => 0

abbrev bufTy : (tb : Table) → Fin (tcTables nBuf tb) → BufTy
  | .hbm, ⟨0, _⟩ => ⟨S8x8192x512, .f32⟩
  | .hbm, ⟨1, _⟩ => ⟨S8x20x512, .f32⟩
  | .hbm, ⟨2, _⟩ => ⟨S8x20x512, .f32⟩
  | .hbm, ⟨3, _⟩ => ⟨S8x1x20, .f32⟩
  | .hbm, ⟨4, _⟩ => ⟨S8x20x8192, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S8x20x512, .f32⟩
  | .hbm, ⟨15, _⟩ => ⟨S8x20x512, .f32⟩
  | .hbm, ⟨16, _⟩ => ⟨S8x8192x20, .f32⟩
  | .hbm, ⟨17, _⟩ => ⟨S8x8192x512, .f32⟩
  | .local _ .vmem, ⟨0, _⟩ => ⟨S1x20x512, .f32⟩
  | .local _ .vmem, ⟨1, _⟩ => ⟨S1x20x512, .f32⟩
  | .local _ .vmem, ⟨2, _⟩ => ⟨S512x512, .f32⟩
  | .local _ .vmem, ⟨3, _⟩ => ⟨S1x512, .f32⟩
  | .local _ .vmem, ⟨4, _⟩ => ⟨S1x20x512, .f32⟩
  | .local _ .vmem, ⟨5, _⟩ => ⟨S1x20x512, .f32⟩
  | .local _ .vmem, ⟨6, _⟩ => ⟨S512x512, .f32⟩
  | .local _ .vmem, ⟨7, _⟩ => ⟨S1x512, .f32⟩
  | .local _ .vmem, ⟨8, _⟩ => ⟨S1x20x512, .f32⟩
  | .local _ .vmem, ⟨9, _⟩ => ⟨S1x20x512, .f32⟩
  | .local _ .vmem, ⟨10, _⟩ => ⟨S1x20x512, .f32⟩
  | .local _ .vmem, ⟨11, _⟩ => ⟨S1x20x512, .f32⟩
  | .local _ .vmem, ⟨12, _⟩ => ⟨S1x1024x512, .f32⟩
  | .local _ .vmem, ⟨13, _⟩ => ⟨S1x1024x512, .f32⟩
  | .local _ .vmem, ⟨14, _⟩ => ⟨S512x512, .f32⟩
  | .local _ .vmem, ⟨15, _⟩ => ⟨S1x512, .f32⟩
  | .local _ .vmem, ⟨16, _⟩ => ⟨S1x20x512, .f32⟩
  | .local _ .vmem, ⟨17, _⟩ => ⟨S1x20x512, .f32⟩
  | .local _ .vmem, ⟨18, _⟩ => ⟨S1x20x512, .f32⟩
  | .local _ .vmem, ⟨19, _⟩ => ⟨S1x20x512, .f32⟩
  | .local _ .vmem, ⟨20, _⟩ => ⟨S1x1x20, .f32⟩
  | .local _ .vmem, ⟨21, _⟩ => ⟨S1x1x20, .f32⟩
  | .local _ .vmem, ⟨22, _⟩ => ⟨S1x1024x20, .f32⟩
  | .local _ .vmem, ⟨23, _⟩ => ⟨S1x1024x20, .f32⟩
  | .local _ .vmem, ⟨24, _⟩ => ⟨S1x1024x512, .f32⟩
  | .local _ .vmem, ⟨25, _⟩ => ⟨S1x1024x512, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3_0 : Ref sig .tc := ⟨.hbm, 14, rfl⟩
abbrev main_v3_1 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc1_stg7_0 : Ref sig .tc := ⟨.vmem, 24, rfl⟩
abbrev cc1_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24
abbrev cc1_sem7_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x20x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x20x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x20x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x20x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x20x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x20 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S1x1024x20 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x1024x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  shapeCasts_S512_S1x512 : S512.ShapeCasts S1x512
  inb_S1x20x512_S1x20x512_0_0_0 : ∀ a, (![0, 0, 0] : Fin 3 → Nat) a + S1x20x512.size a ≤ S1x20x512.size a
  h_S1x20x512 : 0 < S1x20x512.numel
  shapeCasts_S1x20x512_S20x512 : S1x20x512.ShapeCasts S20x512
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S20x512 : S1x512.Broadcasts S20x512
  shapeCasts_S20x512_S1x20x512 : S20x512.ShapeCasts S1x20x512
  transposes_S8x20x8192_S8x8192x20_0_2_1 : S8x20x8192.Transposes [0, 2, 1] S8x8192x20
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  broadcasts_S1x512_S1024x512 : S1x512.Broadcasts S1024x512
  transposes_S20x512_p1_0_S512x20 : S20x512.Transposes [1, 0] S512x20
  inb_S1x1x20_S1x1x20_0_0_0 : ∀ a, (![0, 0, 0] : Fin 3 → Nat) a + S1x1x20.size a ≤ S1x1x20.size a
  h_S1x1x20 : 0 < S1x1x20.numel
  shapeCasts_S1x1x20_S1x20 : S1x1x20.ShapeCasts S1x20
  broadcasts_S1x20_S1024x20 : S1x20.Broadcasts S1024x20
  reduces_S1024x20_S1024 : S1024x20.Reduces [1] S1024
  shapeCasts_S1024_S1024x1 : S1024.ShapeCasts S1024x1
  broadcasts_S1024x1_S1024x20 : S1024x1.Broadcasts S1024x20
  inb_S1x1024x20_S1x1024x20_0_0_0 : ∀ a, (![0, 0, 0] : Fin 3 → Nat) a + S1x1024x20.size a ≤ S1x1024x20.size a
  h_S1x1024x20 : 0 < S1x1024x20.numel
  shapeCasts_S1x1024x20_S1024x20 : S1x1024x20.ShapeCasts S1024x20
  shapeCasts_S1024x512_S1x1024x512 : S1024x512.ShapeCasts S1x1024x512
  dot_S20x512_S512x512_S20x512_1_0_0_1_n_n_wf : DotDims.WF S20x512 S512x512 S20x512 [1] [0] [0] [1] [] []
  dot_S1024x512_S512x512_S1024x512_1_0_0_1_n_n_wf : DotDims.WF S1024x512 S512x512 S1024x512 [1] [0] [0] [1] [] []
  dot_S1024x512_S512x20_S1024x20_1_0_0_1_n_n_wf : DotDims.WF S1024x512 S512x20 S1024x20 [1] [0] [0] [1] [] []
  dot_S1024x20_S20x512_S1024x512_1_0_0_1_n_n_wf : DotDims.WF S1024x20 S20x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x20x512.size a ≤ S8x20x512.size a
  hwx0_0 : ∀ i : grid0.Coords, EltTy.bits .f32 = 32 ∨ (Rect.block (s := S8x20x512) S1x20x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x20x512.size a ≤ S8x20x512.size a
  hwx0_3 : ∀ i : grid0.Coords, EltTy.bits .f32 = 32 ∨ (Rect.block (s := S8x20x512) S1x20x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .f32 = 32 ∨ (Rect.block (s := S512x512) S512x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x20x512.size a ≤ S8x20x512.size a
  hwx0_6 : ∀ i : grid0.Coords, EltTy.bits .f32 = 32 ∨ (Rect.block (s := S8x20x512) S1x20x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x20x512.size a ≤ S8x20x512.size a
  hwx0_7 : ∀ i : grid0.Coords, EltTy.bits .f32 = 32 ∨ (Rect.block (s := S8x20x512) S1x20x512.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x8192x512.size a
  hwx1_0 : ∀ i : grid1.Coords, EltTy.bits .f32 = 32 ∨ (Rect.block (s := S8x8192x512) S1x1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x20x512.size a ≤ S8x20x512.size a
  hwx1_3 : ∀ i : grid1.Coords, EltTy.bits .f32 = 32 ∨ (Rect.block (s := S8x20x512) S1x20x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x20x512.size a ≤ S8x20x512.size a
  hwx1_4 : ∀ i : grid1.Coords, EltTy.bits .f32 = 32 ∨ (Rect.block (s := S8x20x512) S1x20x512.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x20.size a ≤ S8x1x20.size a
  hwx1_5 : ∀ i : grid1.Coords, EltTy.bits .f32 = 32 ∨ (Rect.block (s := S8x1x20) S1x1x20.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x20.size a ≤ S8x8192x20.size a
  hwx1_6 : ∀ i : grid1.Coords, EltTy.bits .f32 = 32 ∨ (Rect.block (s := S8x8192x20) S1x1024x20.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x1024x512.size a ≤ S8x8192x512.size a
  hwx1_7 : ∀ i : grid1.Coords, EltTy.bits .f32 = 32 ∨ (Rect.block (s := S8x8192x512) S1x1024x512.size (cc1_transform_7 i) (hinb1_7 i)).WholeWords (EltTy.packing .f32)

variable [Facts₀]

def dot_S20x512_S512x512_S20x512_1_0_0_1_n_n : DotDims S20x512 S512x512 S20x512 where
  lhsContracting := [1]
  rhsContracting := [0]
  lhsNonContracting := [0]
  rhsNonContracting := [1]
  lhsBatch := []
  rhsBatch := []
  wf := dot_S20x512_S512x512_S20x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x20_S1024x20_1_0_0_1_n_n : DotDims S1024x512 S512x20 S1024x20 where
  lhsContracting := [1]
  rhsContracting := [0]
  lhsNonContracting := [0]
  rhsNonContracting := [1]
  lhsBatch := []
  rhsBatch := []
  wf := dot_S1024x512_S512x20_S1024x20_1_0_0_1_n_n_wf
def dot_S1024x20_S20x512_S1024x512_1_0_0_1_n_n : DotDims S1024x20 S20x512 S1024x512 where
  lhsContracting := [1]
  rhsContracting := [0]
  lhsNonContracting := [0]
  rhsNonContracting := [1]
  lhsBatch := []
  rhsBatch := []
  wf := dot_S1024x20_S20x512_S1024x512_1_0_0_1_n_n_wf

abbrev win0_0 : Pipeline.Window sig grid0 :=
  Pipeline.Window.ofSpec (Memref.whole main_arg1) S1x20x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S1x20x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg9) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3_0) S1x20x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_1) S1x20x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S1x20x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S1x20x512.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg3) S1x1x20.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v4) S1x1024x20.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x1024x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S8x8192x512 : Shape := ⟨3, ![8, 8192, 512]⟩
abbrev S8x20x512 : Shape := ⟨3, ![8, 20, 512]⟩
abbrev S8x1x20 : Shape := ⟨3, ![8, 1, 20]⟩
abbrev S8x20x8192 : Shape := ⟨3, ![8, 20, 8192]⟩
abbrev S512x512 : Shape := ⟨2, ![512, 512]⟩
abbrev S512 : Shape := ⟨1, ![512]⟩
abbrev S1x1x512 : Shape := ⟨3, ![1, 1, 512]⟩
abbrev S8x8192x20 : Shape := ⟨3, ![8, 8192, 20]⟩
abbrev S_ : Shape := ⟨0, ![]⟩
abbrev S8x8192 : Shape := ⟨2, ![8, 8192]⟩
abbrev S8x8192x1 : Shape := ⟨3, ![8, 8192, 1]⟩

abbrev nBuf : Space → Nat
  | .hbm => 76
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x20x512, .f32⟩
  | .hbm, ⟨2, _⟩ => ⟨S8x20x512, .f32⟩
  | .hbm, ⟨3, _⟩ => ⟨S8x1x20, .f32⟩
  | .hbm, ⟨4, _⟩ => ⟨S8x20x8192, .f32⟩
  | .hbm, ⟨5, _⟩ => ⟨S512x512, .f32⟩
  | .hbm, ⟨6, _⟩ => ⟨S512, .f32⟩
  | .hbm, ⟨7, _⟩ => ⟨S512x512, .f32⟩
  | .hbm, ⟨8, _⟩ => ⟨S512, .f32⟩
  | .hbm, ⟨9, _⟩ => ⟨S512x512, .f32⟩
  | .hbm, ⟨10, _⟩ => ⟨S512, .f32⟩
  | .hbm, ⟨11, _⟩ => ⟨S8x8192x512, .f32⟩
  | .hbm, ⟨12, _⟩ => ⟨S1x1x512, .f32⟩
  | .hbm, ⟨13, _⟩ => ⟨S8x8192x512, .f32⟩
  | .hbm, ⟨14, _⟩ => ⟨S8x8192x512, .f32⟩
  | .hbm, ⟨15, _⟩ => ⟨S8x20x512, .f32⟩
  | .hbm, ⟨16, _⟩ => ⟨S1x1x512, .f32⟩
  | .hbm, ⟨17, _⟩ => ⟨S8x20x512, .f32⟩
  | .hbm, ⟨18, _⟩ => ⟨S8x20x512, .f32⟩
  | .hbm, ⟨19, _⟩ => ⟨S8x20x512, .f32⟩
  | .hbm, ⟨20, _⟩ => ⟨S1x1x512, .f32⟩
  | .hbm, ⟨21, _⟩ => ⟨S8x20x512, .f32⟩
  | .hbm, ⟨22, _⟩ => ⟨S8x20x512, .f32⟩
  | .hbm, ⟨23, _⟩ => ⟨S8x8192x20, .f32⟩
  | .hbm, ⟨24, _⟩ => ⟨S_, .f32⟩
  | .hbm, ⟨25, _⟩ => ⟨S8x8192x20, .f32⟩
  | .hbm, ⟨26, _⟩ => ⟨S8x8192x20, .f32⟩
  | .hbm, ⟨27, _⟩ => ⟨S8x8192x20, .f32⟩
  | .hbm, ⟨28, _⟩ => ⟨S8x8192x20, .f32⟩
  | .hbm, ⟨29, _⟩ => ⟨S_, .f32⟩
  | .hbm, ⟨30, _⟩ => ⟨S8x8192, .f32⟩
  | .hbm, ⟨31, _⟩ => ⟨S_, .f32⟩
  | .hbm, ⟨32, _⟩ => ⟨S8x8192, .f32⟩
  | .hbm, ⟨33, _⟩ => ⟨S8x8192, .f32⟩
  | .hbm, ⟨34, _⟩ => ⟨S8x8192x1, .f32⟩
  | .hbm, ⟨35, _⟩ => ⟨S8x8192x20, .f32⟩
  | .hbm, ⟨36, _⟩ => ⟨S8x8192x20, .f32⟩
  | .hbm, ⟨37, _⟩ => ⟨S8x8192x20, .f32⟩
  | .hbm, ⟨38, _⟩ => ⟨S_, .f32⟩
  | .hbm, ⟨39, _⟩ => ⟨S8x8192, .f32⟩
  | .hbm, ⟨40, _⟩ => ⟨S8x8192x1, .f32⟩
  | .hbm, ⟨41, _⟩ => ⟨S8x8192x20, .f32⟩
  | .hbm, ⟨42, _⟩ => ⟨S8x8192x20, .f32⟩
  | .hbm, ⟨43, _⟩ => ⟨S8x8192x20, .f32⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S8x8192, .f32⟩
  | .hbm, ⟨49, _⟩ => ⟨S8x8192x1, .f32⟩
  | .hbm, ⟨50, _⟩ => ⟨S8x8192x20, .f32⟩
  | .hbm, ⟨51, _⟩ => ⟨S8x8192x20, .f32⟩
  | .hbm, ⟨52, _⟩ => ⟨S8x8192x20, .f32⟩
  | .hbm, ⟨53, _⟩ => ⟨S_, .f32⟩
  | .hbm, ⟨54, _⟩ => ⟨S8x8192, .f32⟩
  | .hbm, ⟨55, _⟩ => ⟨S8x8192x1, .f32⟩
  | .hbm, ⟨56, _⟩ => ⟨S8x8192x20, .f32⟩
  | .hbm, ⟨57, _⟩ => ⟨S8x8192x20, .f32⟩
  | .hbm, ⟨58, _⟩ => ⟨S8x8192x20, .f32⟩
  | .hbm, ⟨59, _⟩ => ⟨S8x8192x20, .f32⟩
  | .hbm, ⟨60, _⟩ => ⟨S8x8192x20, .f32⟩
  | .hbm, ⟨61, _⟩ => ⟨S_, .f32⟩
  | .hbm, ⟨62, _⟩ => ⟨S8x8192, .f32⟩
  | .hbm, ⟨63, _⟩ => ⟨S_, .f32⟩
  | .hbm, ⟨64, _⟩ => ⟨S8x8192, .f32⟩
  | .hbm, ⟨65, _⟩ => ⟨S8x8192, .f32⟩
  | .hbm, ⟨66, _⟩ => ⟨S8x8192x1, .f32⟩
  | .hbm, ⟨67, _⟩ => ⟨S8x8192x20, .f32⟩
  | .hbm, ⟨68, _⟩ => ⟨S8x8192x20, .f32⟩
  | .hbm, ⟨69, _⟩ => ⟨S8x8192x20, .f32⟩
  | .hbm, ⟨70, _⟩ => ⟨S_, .f32⟩
  | .hbm, ⟨71, _⟩ => ⟨S8x8192, .f32⟩
  | .hbm, ⟨72, _⟩ => ⟨S8x8192x1, .f32⟩
  | .hbm, ⟨73, _⟩ => ⟨S8x8192x20, .f32⟩
  | .hbm, ⟨74, _⟩ => ⟨S8x8192x20, .f32⟩
  | .hbm, ⟨75, _⟩ => ⟨S8x8192x512, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_3 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_cst_7 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S8x8192x512_0_1_2 : S1x1x512.BroadcastsInDim S8x8192x512 (![0, 1, 2] : Fin 3 → Fin S8x8192x512.rank)
  bcast_S1x1x512_S8x20x512_0_1_2 : S1x1x512.BroadcastsInDim S8x20x512 (![0, 1, 2] : Fin 3 → Fin S8x20x512.rank)
  bcast_S_S8x8192x20 : S_.BroadcastsInDim S8x8192x20 (![] : Fin 0 → Fin S8x8192x20.rank)
  bcast_S8x1x20_S8x8192x20_0_1_2 : S8x1x20.BroadcastsInDim S8x8192x20 (![0, 1, 2] : Fin 3 → Fin S8x8192x20.rank)
  reducesTo_S8x8192x20_S8x8192_d2 : S8x8192x20.ReducesTo [2] S8x8192
  h_S_ : 0 < S_.numel
  bcast_S_S8x8192 : S_.BroadcastsInDim S8x8192 (![] : Fin 0 → Fin S8x8192.rank)
  bcast_S8x8192_S8x8192x1_0_1 : S8x8192.BroadcastsInDim S8x8192x1 (![0, 1] : Fin 2 → Fin S8x8192x1.rank)
  bcast_S8x8192x1_S8x8192x20_0_1_2 : S8x8192x1.BroadcastsInDim S8x8192x20 (![0, 1, 2] : Fin 3 → Fin S8x8192x20.rank)
  transposes_S8x20x8192_S8x8192x20_0_2_1 : S8x20x8192.Transposes [0, 2, 1] S8x8192x20
  dot_S8x8192x512_S512x512_S8x8192x512_2_0_01_1_n_n_wf : DotDims.WF S8x8192x512 S512x512 S8x8192x512 [2] [0] [0, 1] [1] [] []
  dot_S8x20x512_S512x512_S8x20x512_2_0_01_1_n_n_wf : DotDims.WF S8x20x512 S512x512 S8x20x512 [2] [0] [0, 1] [1] [] []
  dot_S8x8192x512_S8x20x512_S8x8192x20_2_2_1_1_0_0_wf : DotDims.WF S8x8192x512 S8x20x512 S8x8192x20 [2] [2] [1] [1] [0] [0]
  dot_S8x8192x20_S8x20x512_S8x8192x512_2_1_1_2_0_0_wf : DotDims.WF S8x8192x20 S8x20x512 S8x8192x512 [2] [1] [1] [2] [0] [0]

variable [Facts₀]

def dot_S8x8192x512_S512x512_S8x8192x512_2_0_01_1_n_n : DotDims S8x8192x512 S512x512 S8x8192x512 where
  lhsContracting := [2]
  rhsContracting := [0]
  lhsNonContracting := [0, 1]
  rhsNonContracting := [1]
  lhsBatch := []
  rhsBatch := []
  wf := dot_S8x8192x512_S512x512_S8x8192x512_2_0_01_1_n_n_wf
def dot_S8x20x512_S512x512_S8x20x512_2_0_01_1_n_n : DotDims S8x20x512 S512x512 S8x20x512 where
  lhsContracting := [2]
  rhsContracting := [0]
  lhsNonContracting := [0, 1]
  rhsNonContracting := [1]
  lhsBatch := []
  rhsBatch := []
  wf := dot_S8x20x512_S512x512_S8x20x512_2_0_01_1_n_n_wf
def dot_S8x8192x512_S8x20x512_S8x8192x20_2_2_1_1_0_0 : DotDims S8x8192x512 S8x20x512 S8x8192x20 where
  lhsContracting := [2]
  rhsContracting := [2]
  lhsNonContracting := [1]
  rhsNonContracting := [1]
  lhsBatch := [0]
  rhsBatch := [0]
  wf := dot_S8x8192x512_S8x20x512_S8x8192x20_2_2_1_1_0_0_wf
def dot_S8x8192x20_S8x20x512_S8x8192x512_2_1_1_2_0_0 : DotDims S8x8192x20 S8x20x512 S8x8192x512 where
  lhsContracting := [2]
  rhsContracting := [1]
  lhsNonContracting := [1]
  rhsNonContracting := [2]
  lhsBatch := [0]
  rhsBatch := [0]
  wf := dot_S8x8192x20_S8x20x512_S8x8192x512_2_1_1_2_0_0_wf

class Facts : Prop extends Facts₀ where

variable [Facts]
-- ==== Proof.KernelRun.lean ====
/-
  The idealized kernel's run with its result array named.

  The program is two pipelined regions among host operations: the bias reshapes, the projection of the class keys and
  values (8 grid points, one batch each), the transpose of the coarse prediction, and the attention region (8 × 8 grid
  points, 1024 tokens of one batch each). Every weakly fair execution terminates without a fault; the final memory
  holds, at the result buffer, what the attention region's write-backs leave there, one block per grid point, folded
  over the grid, and every argument array as launched.
-/
import proofs.«111245_j30666066494067_1_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the array the attention region's output window writes back to, so at the last boundary it
    holds that window's write-backs folded over the whole grid. -/
theorem result_at_exit (c : Dev nD) :
    W4 m ρ c (Proc.devRef .tc main_v5) = (dat1 (V3 m ρ) c).arrAt 7 cfg1.N :=
  W4_arr m ρ c 7

set_option backward.isDefEq.respectTransparency.types false in
/-- Every weakly fair execution of the idealized kernel terminates, nothing faulting, with the result buffer at the
    attention region's folded write-backs and the eleven argument arrays as launched. -/
theorem run_result : θ_run defs (onTc (τ := τ) (main (F := F))) ⟨m, fun _ => 0, ρ⟩ (fun r => ∀ c : Dev nD,
      r.2.mem ((c : Thread nD τ).loc main_v5) = (dat1 (V3 m ρ) c).arrAt 7 cfg1.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (result_at_exit m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c)⟩)

end Cert.KernelIdeal.ValueRun

end
-- ==== Proof.BlockMatmul.lean ====
/-
  The kernel's four matrix products, each accumulated from zero, read at an entry.

  A product of an A × K block with a K × B block at entry (i, j) is Σ_k l[i, k] · r[k, j]: the left operand is read on
  row i, the right on column j, and the one contracted axis runs over k. The four products are the class projection
  (20 × 512 by 512 × 512), the token projection (1024 × 512 by 512 × 512), the logits (1024 × 512 by 512 × 20) and the
  weighted class values (1024 × 20 by 20 × 512).
-/
import proofs.«111245_j30666066494067_1_alg».proof.Proof.Gen.KernelIdeal
import Idealize.ShloMosaic.PureOps.Ideal.Laws
import Idealize.ShloMosaic.Lib.ValueIdx

noncomputable section

namespace Cert.KernelIdeal.BlockMatmul

open Cert.KernelIdeal Idealize.ShloMosaic Idealize.ShloMosaic.ValueIdx

/-! ## 20 × 512 by 512 × 512 -/

/-- On the rows axis the left operand's index at an output entry is the entry's row, whatever the contraction index. -/
theorem lhs_row_20x512 (y : S20x512.Idx) (q : dot_S20x512_S512x512_S20x512_1_0_0_1_n_n.contr.Idx) :
    (dot_S20x512_S512x512_S20x512_1_0_0_1_n_n.lhsIdx y q 0).val = (y 0).val := by
  unfold DotDims.lhsIdx
  rw [dif_neg (show ¬(0 : Fin S20x512.rank) ∈ dot_S20x512_S512x512_S20x512_1_0_0_1_n_n.lhsBatch by decide), dif_pos (show (0 : Fin S20x512.rank) ∈ dot_S20x512_S512x512_S20x512_1_0_0_1_n_n.lhsNonContracting by decide)]
  rfl
/-- On the columns axis the right operand's index at an output entry is the entry's column. -/
theorem rhs_col_20x512 (y : S20x512.Idx) (q : dot_S20x512_S512x512_S20x512_1_0_0_1_n_n.contr.Idx) :
    (dot_S20x512_S512x512_S20x512_1_0_0_1_n_n.rhsIdx y q 1).val = (y 1).val := by
  unfold DotDims.rhsIdx
  rw [dif_neg (show ¬(1 : Fin S512x512.rank) ∈ dot_S20x512_S512x512_S20x512_1_0_0_1_n_n.rhsBatch by decide), dif_pos (show (1 : Fin S512x512.rank) ∈ dot_S20x512_S512x512_S20x512_1_0_0_1_n_n.rhsNonContracting by decide)]
  rfl

/-- The product of a 20 × 512 block with a 512 × 512 block, accumulated from zero, at (i, j): Σ_k l[i, k] · r[k, j]. -/
theorem matmul_20x512_512x512 (l : FVec Ideal S20x512 .bf16) (r : FVec Ideal S512x512 .bf16) (i : Fin 20) (j : Fin 512) :
    matmul (F := Ideal) dot_S20x512_S512x512_S20x512_1_0_0_1_n_n none l r (constant S20x512 .f32 0x00000000#32) (ix2 i j)
      = ∑ k : Fin 512, l (ix2 i k) * r (ix2 k j) := by
  refine (Ideal.matmul_constant_zero_apply dot_S20x512_S512x512_S20x512_1_0_0_1_n_n none l r (ix2 i j)).trans ?_
  rw [← Equiv.sum_comp (ValueIdx.contrEquiv1 dot_S20x512_S512x512_S20x512_1_0_0_1_n_n 512 rfl rfl).symm]
  refine Finset.sum_congr rfl fun k _ => ?_
  have hk := ValueIdx.contrEquiv1_symm_val dot_S20x512_S512x512_S20x512_1_0_0_1_n_n 512 rfl rfl k
  have el : dot_S20x512_S512x512_S20x512_1_0_0_1_n_n.lhsIdx (ix2 i j) ((ValueIdx.contrEquiv1 dot_S20x512_S512x512_S20x512_1_0_0_1_n_n 512 rfl rfl).symm k) = ix2 i k := funext fun a => Fin.ext (by
    match a with
    | ⟨0, _⟩ => exact lhs_row_20x512 _ _
    | ⟨1, _⟩ => exact (dot_S20x512_S512x512_S20x512_1_0_0_1_n_n.lhsIdx_val_of_single rfl _ _).trans hk)
  have er : dot_S20x512_S512x512_S20x512_1_0_0_1_n_n.rhsIdx (ix2 i j) ((ValueIdx.contrEquiv1 dot_S20x512_S512x512_S20x512_1_0_0_1_n_n 512 rfl rfl).symm k) = ix2 k j := funext fun a => Fin.ext (by
    match a with
    | ⟨0, _⟩ => exact (dot_S20x512_S512x512_S20x512_1_0_0_1_n_n.rhsIdx_val_of_single rfl _ _).trans hk
    | ⟨1, _⟩ => exact rhs_col_20x512 _ _)
  rw [el, er]

/-! ## 1024 × 512 by 512 × 512 -/

/-- On the rows axis the left operand's index at an output entry is the entry's row. -/
theorem lhs_row_1024x512 (y : S1024x512.Idx) (q : dot_S1024x512_S512x512_S1024x512_1_0_0_1_n_n.contr.Idx) :
    (dot_S1024x512_S512x512_S1024x512_1_0_0_1_n_n.lhsIdx y q 0).val = (y 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
/-- On the columns axis the right operand's index at an output entry is the entry's column. -/
theorem rhs_col_1024x512 (y : S1024x512.Idx) (q : dot_S1024x512_S512x512_S1024x512_1_0_0_1_n_n.contr.Idx) :
    (dot_S1024x512_S512x512_S1024x512_1_0_0_1_n_n.rhsIdx y q 1).val = (y 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product of a 1024 × 512 block with a 512 × 512 block, accumulated from zero, at (i, j): Σ_k l[i, k] · r[k, j]. -/
theorem matmul_1024x512_512x512 (l : FVec Ideal S1024x512 .bf16) (r : FVec Ideal S512x512 .bf16) (i : Fin 1024) (j : Fin 512) :
    matmul (F := Ideal) dot_S1024x512_S512x512_S1024x512_1_0_0_1_n_n none l r (constant S1024x512 .f32 0x00000000#32) (ix2 i j)
      = ∑ k : Fin 512, l (ix2 i k) * r (ix2 k j) := by
  refine (Ideal.matmul_constant_zero_apply dot_S1024x512_S512x512_S1024x512_1_0_0_1_n_n none l r (ix2 i j)).trans ?_
  rw [← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 i j) ((ValueIdx.contrEquiv1 dot_S1024x512_S512x512_S1024x512_1_0_0_1_n_n 512 rfl rfl).symm k) = ix2 i k := funext fun a => Fin.ext (by
    match a with
    | ⟨0, _⟩ => exact lhs_row_1024x512 _ _
    | ⟨1, _⟩ => exact (dot_S1024x512_S512x512_S1024x512_1_0_0_1_n_n.lhsIdx_val_of_single rfl _ _).trans hk)
  have er : dot_S1024x512_S512x512_S1024x512_1_0_0_1_n_n.rhsIdx (ix2 i j) ((ValueIdx.contrEquiv1 dot_S1024x512_S512x512_S1024x512_1_0_0_1_n_n 512 rfl rfl).symm k) = ix2 k j := funext fun a => Fin.ext (by
    match a with
    | ⟨0, _⟩ => exact (dot_S1024x512_S512x512_S1024x512_1_0_0_1_n_n.rhsIdx_val_of_single rfl _ _).trans hk
    | ⟨1, _⟩ => exact rhs_col_1024x512 _ _)
  rw [el, er]

/-! ## 1024 × 512 by 512 × 20 -/

/-- On the rows axis the left operand's index at an output entry is the entry's row. -/
theorem lhs_row_1024x20 (y : S1024x20.Idx) (q : dot_S1024x512_S512x20_S1024x20_1_0_0_1_n_n.contr.Idx) :
    (dot_S1024x512_S512x20_S1024x20_1_0_0_1_n_n.lhsIdx y q 0).val = (y 0).val := by
  unfold DotDims.lhsIdx
  rw [dif_neg (show ¬(0 : Fin S1024x512.rank) ∈ dot_S1024x512_S512x20_S1024x20_1_0_0_1_n_n.lhsBatch by decide), dif_pos (show (0 : Fin S1024x512.rank) ∈ dot_S1024x512_S512x20_S1024x20_1_0_0_1_n_n.lhsNonContracting by decide)]
  rfl
/-- On the columns axis the right operand's index at an output entry is the entry's column. -/
theorem rhs_col_1024x20 (y : S1024x20.Idx) (q : dot_S1024x512_S512x20_S1024x20_1_0_0_1_n_n.contr.Idx) :
    (dot_S1024x512_S512x20_S1024x20_1_0_0_1_n_n.rhsIdx y q 1).val = (y 1).val := by
  unfold DotDims.rhsIdx
  rw [dif_neg (show ¬(1 : Fin S512x20.rank) ∈ dot_S1024x512_S512x20_S1024x20_1_0_0_1_n_n.rhsBatch by decide), dif_pos (show (1 : Fin S512x20.rank) ∈ dot_S1024x512_S512x20_S1024x20_1_0_0_1_n_n.rhsNonContracting by decide)]
  rfl

/-- The product of a 1024 × 512 block with a 512 × 20 block, accumulated from zero, at (i, j): Σ_k l[i, k] · r[k, j]. -/
theorem matmul_1024x512_512x20 (l : FVec Ideal S1024x512 .bf16) (r : FVec Ideal S512x20 .bf16) (i : Fin 1024) (j : Fin 20) :
    matmul (F := Ideal) dot_S1024x512_S512x20_S1024x20_1_0_0_1_n_n none l r (constant S1024x20 .f32 0x00000000#32) (ix2 i j)
      = ∑ k : Fin 512, l (ix2 i k) * r (ix2 k j) := by
  refine (Ideal.matmul_constant_zero_apply dot_S1024x512_S512x20_S1024x20_1_0_0_1_n_n none l r (ix2 i j)).trans ?_
  rw [← Equiv.sum_comp (ValueIdx.contrEquiv1 dot_S1024x512_S512x20_S1024x20_1_0_0_1_n_n 512 rfl rfl).symm]
  refine Finset.sum_congr rfl fun k _ => ?_
  have hk := ValueIdx.contrEquiv1_symm_val dot_S1024x512_S512x20_S1024x20_1_0_0_1_n_n 512 rfl rfl k
  have el : dot_S1024x512_S512x20_S1024x20_1_0_0_1_n_n.lhsIdx (ix2 i j) ((ValueIdx.contrEquiv1 dot_S1024x512_S512x20_S1024x20_1_0_0_1_n_n 512 rfl rfl).symm k) = ix2 i k := funext fun a => Fin.ext (by
    match a with
    | ⟨0, _⟩ => exact lhs_row_1024x20 _ _
    | ⟨1, _⟩ => exact (dot_S1024x512_S512x20_S1024x20_1_0_0_1_n_n.lhsIdx_val_of_single rfl _ _).trans hk)
  have er : dot_S1024x512_S512x20_S1024x20_1_0_0_1_n_n.rhsIdx (ix2 i j) ((ValueIdx.contrEquiv1 dot_S1024x512_S512x20_S1024x20_1_0_0_1_n_n 512 rfl rfl).symm k) = ix2 k j := funext fun a => Fin.ext (by
    match a with
    | ⟨0, _⟩ => exact (dot_S1024x512_S512x20_S1024x20_1_0_0_1_n_n.rhsIdx_val_of_single rfl _ _).trans hk
    | ⟨1, _⟩ => exact rhs_col_1024x20 _ _)
  rw [el, er]

/-! ## 1024 × 20 by 20 × 512 -/

/-- On the rows axis the left operand's index at an output entry is the entry's row. -/
theorem lhs_row_out (y : S1024x512.Idx) (q : dot_S1024x20_S20x512_S1024x512_1_0_0_1_n_n.contr.Idx) :
    (dot_S1024x20_S20x512_S1024x512_1_0_0_1_n_n.lhsIdx y q 0).val = (y 0).val := by
  unfold DotDims.lhsIdx
  rw [dif_neg (show ¬(0 : Fin S1024x20.rank) ∈ dot_S1024x20_S20x512_S1024x512_1_0_0_1_n_n.lhsBatch by decide), dif_pos (show (0 : Fin S1024x20.rank) ∈ dot_S1024x20_S20x512_S1024x512_1_0_0_1_n_n.lhsNonContracting by decide)]
  rfl
/-- On the columns axis the right operand's index at an output entry is the entry's column. -/
theorem rhs_col_out (y : S1024x512.Idx) (q : dot_S1024x20_S20x512_S1024x512_1_0_0_1_n_n.contr.Idx) :
    (dot_S1024x20_S20x512_S1024x512_1_0_0_1_n_n.rhsIdx y q 1).val = (y 1).val := by
  unfold DotDims.rhsIdx
  rw [dif_neg (show ¬(1 : Fin S20x512.rank) ∈ dot_S1024x20_S20x512_S1024x512_1_0_0_1_n_n.rhsBatch by decide), dif_pos (show (1 : Fin S20x512.rank) ∈ dot_S1024x20_S20x512_S1024x512_1_0_0_1_n_n.rhsNonContracting by decide)]
  rfl

/-- The product of a 1024 × 20 block with a 20 × 512 block, accumulated from zero, at (i, j): Σ_k l[i, k] · r[k, j]. -/
theorem matmul_1024x20_20x512 (l : FVec Ideal S1024x20 .bf16) (r : FVec Ideal S20x512 .bf16) (i : Fin 1024) (j : Fin 512) :
    matmul (F := Ideal) dot_S1024x20_S20x512_S1024x512_1_0_0_1_n_n none l r (constant S1024x512 .f32 0x00000000#32) (ix2 i j)
      = ∑ k : Fin 20, l (ix2 i k) * r (ix2 k j) := by
  refine (Ideal.matmul_constant_zero_apply dot_S1024x20_S20x512_S1024x512_1_0_0_1_n_n none l r (ix2 i j)).trans ?_
  rw [← Equiv.sum_comp (ValueIdx.contrEquiv1 dot_S1024x20_S20x512_S1024x512_1_0_0_1_n_n 20 rfl rfl).symm]
  refine Finset.sum_congr rfl fun k _ => ?_
  have hk := ValueIdx.contrEquiv1_symm_val dot_S1024x20_S20x512_S1024x512_1_0_0_1_n_n 20 rfl rfl k
  have el : dot_S1024x20_S20x512_S1024x512_1_0_0_1_n_n.lhsIdx (ix2 i j) ((ValueIdx.contrEquiv1 dot_S1024x20_S20x512_S1024x512_1_0_0_1_n_n 20 rfl rfl).symm k) = ix2 i k := funext fun a => Fin.ext (by
    match a with
    | ⟨0, _⟩ => exact lhs_row_out _ _
    | ⟨1, _⟩ => exact (dot_S1024x20_S20x512_S1024x512_1_0_0_1_n_n.lhsIdx_val_of_single rfl _ _).trans hk)
  have er : dot_S1024x20_S20x512_S1024x512_1_0_0_1_n_n.rhsIdx (ix2 i j) ((ValueIdx.contrEquiv1 dot_S1024x20_S20x512_S1024x512_1_0_0_1_n_n 20 rfl rfl).symm k) = ix2 k j := funext fun a => Fin.ext (by
    match a with
    | ⟨0, _⟩ => exact (dot_S1024x20_S20x512_S1024x512_1_0_0_1_n_n.rhsIdx_val_of_single rfl _ _).trans hk
    | ⟨1, _⟩ => exact rhs_col_out _ _)
  rw [el, er]

end Cert.KernelIdeal.BlockMatmul

end
-- ==== Proof.ProjectionBlock.lean ====
/-
  What one grid point of the projection region stores, read at an entry.

  A point holds one batch: a 1 × 20 × 512 block x of class rows, the 512 × 512 matrix W and the 1 × 512 bias row β. The
  stored block at (0, c, e) is Σ_d x[0, c, d] · W[d, e] + β[0, e]: the leading unit axis is dropped and put back around a
  20 × 512 by 512 × 512 product, and the bias row is broadcast down the 20 class rows. The keys and the values are
  projected by the same body on their own operands.
-/
import proofs.«111245_j30666066494067_1_alg».proof.Proof.Gen.KernelIdeal.Skeleton
import proofs.«111245_j30666066494067_1_alg».proof.Proof.BlockMatmul
import Idealize.ShloMosaic.Lib.ValueLayout

noncomputable section

namespace Cert.KernelIdeal.ProjectionBlock

open Cert.KernelIdeal Cert.KernelIdeal.Gen
open Idealize.ShloMosaic Idealize.ShloMosaic.ValueIdx

/-- The keys' stored block at (0, c, e): the class row projected, the bias added. -/
theorem keys_at (x : Vec Ideal S1x20x512 .f32) (W : Vec Ideal S512x512 .f32) (β : Vec Ideal S1x512 .f32) (c : Fin 20) (e : Fin 512) :
    k0_pay1 (F := Ideal) x W β (ix3 (0 : Fin 1) c e)
      = (∑ d : Fin 512, x (ix3 (0 : Fin 1) c d) * W (ix2 d e)) + β (ix2 (0 : Fin 1) e) := by
  unfold k0_pay1
  refine (shapeCast_ab_1ab_apply _ shapeCasts_S20x512_S1x20x512 (0 : Fin 1) c e).trans ?_
  show matmul (F := Ideal) dot_S20x512_S512x512_S20x512_1_0_0_1_n_n none
        (truncf .bf16 (shapeCast S20x512 x shapeCasts_S1x20x512_S20x512) bitsLt_bf16_f32) (truncf .bf16 W bitsLt_bf16_f32)
        (constant S20x512 .f32 0x00000000#32) (ix2 c e)
      + broadcastTo S20x512 (shapeCast S1x512 β shapeCasts_S1x512_S1x512) broadcasts_S1x512_S20x512 (ix2 c e) = _
  rw [BlockMatmul.matmul_20x512_512x512, broadcastTo_1b_ab_apply, shapeCast_self]
  refine congrArg (· + β (ix2 (0 : Fin 1) e)) (Finset.sum_congr rfl fun d _ => ?_)
  show shapeCast S20x512 x shapeCasts_S1x20x512_S20x512 (ix2 c d) * W (ix2 d e) = _
  rw [shapeCast_1ab_ab_apply]

/-- The values' stored block at (0, c, e): the same body on the values' operands. -/
theorem values_at (x : Vec Ideal S1x20x512 .f32) (W : Vec Ideal S512x512 .f32) (β : Vec Ideal S1x512 .f32) (c : Fin 20) (e : Fin 512) :
    k0_pay2 (F := Ideal) x W β (ix3 (0 : Fin 1) c e)
      = (∑ d : Fin 512, x (ix3 (0 : Fin 1) c d) * W (ix2 d e)) + β (ix2 (0 : Fin 1) e) := by
  unfold k0_pay2
  refine (shapeCast_ab_1ab_apply _ shapeCasts_S20x512_S1x20x512 (0 : Fin 1) c e).trans ?_
  show matmul (F := Ideal) dot_S20x512_S512x512_S20x512_1_0_0_1_n_n none
        (truncf .bf16 (shapeCast S20x512 x shapeCasts_S1x20x512_S20x512) bitsLt_bf16_f32) (truncf .bf16 W bitsLt_bf16_f32)
        (constant S20x512 .f32 0x00000000#32) (ix2 c e)
      + broadcastTo S20x512 (shapeCast S1x512 β shapeCasts_S1x512_S1x512) broadcasts_S1x512_S20x512 (ix2 c e) = _
  rw [BlockMatmul.matmul_20x512_512x512, broadcastTo_1b_ab_apply, shapeCast_self]
  refine congrArg (· + β (ix2 (0 : Fin 1) e)) (Finset.sum_congr rfl fun d _ => ?_)
  show shapeCast S20x512 x shapeCasts_S1x20x512_S20x512 (ix2 c d) * W (ix2 d e) = _
  rw [shapeCast_1ab_ab_apply]

end Cert.KernelIdeal.ProjectionBlock

end
-- ==== Proof.ProjectionRegion.lean ====
/-
  The projection region's two result arrays, whole.

  The region has 8 grid points, one per batch. Point t stages batch t of the class keys (a 1 × 20 × 512 block), the whole
  512 × 512 matrix and the whole 1 × 512 bias row, and likewise for the class values; it writes back one 1 × 20 × 512
  block of each result. Read through the windows' index maps, what point t writes back is block t of ONE array function:
  at (b, c, e), Σ_d x[b, c, d] · W[d, e] + β[0, e]. The 8 blocks tile the 8 × 20 × 512 array, so after the region each
  result array IS that function of the arrays the region found at entry.
-/
import proofs.«111245_j30666066494067_1_alg».proof.Proof.Gen.KernelIdeal.Frame
import proofs.«111245_j30666066494067_1_alg».proof.Proof.ProjectionBlock
import Idealize.ShloMosaic.Lib.Pipeline.Value
import Idealize.ShloMosaic.Lib.ValueLayout

set_option maxRecDepth 16384

noncomputable section

namespace Cert.KernelIdeal.ProjectionRegion

open Cert.KernelIdeal Cert.KernelIdeal.Gen Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The projected class rows as one array: at (b, c, e), Σ_d x[b, c, d] · W[d, e] + β[0, e]. -/
def projArr (x : S8x20x512.Idx → EReal) (W : S512x512.Idx → EReal) (β2 : S1x512.Idx → EReal) : S8x20x512.Idx → EReal :=
  fun i => (∑ d : Fin 512, x (ix3 (i 0) (i 1) d) * W (ix2 d (i 2))) + β2 (ix2 (0 : Fin 1) (i 2))

/-- The windows' index maps over the 8 points: the keys' block moves with the result's on the batch axis and sits at 0 on
    the others; the matrix and the bias row never move. -/
theorem idx_facts0 : ∀ t : Fin cfg0.N,
    win0_0.index t (0 : Fin 3) = win0_6.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_6.index t (1 : Fin 3) = 0 ∧ win0_6.index t (2 : Fin 3) = 0 ∧ win0_6.index t (0 : Fin 3) ≤ 7 :=
  (by decide +kernel : ∀ t : Fin grid0.N, _)

/-! ## The projection region: each input window's block as entries of its array -/

/-- A class-row block at a point, read at `x`: the array at `k`, one coordinate equation per axis. -/
theorem rows_read (c : Dev nD) (t : Fin cfg0.N) (x : S1x20x512.Idx) (k : S8x20x512.Idx)
    (h0 : (k 0).val = win0_0.index t (0 : Fin 3) * 1 + 1 * (x 0).val) (h1 : (k 1).val = win0_0.index t (1 : Fin 3) * 20 + 1 * (x 1).val)
    (h2 : (k 2).val = win0_0.index t (2 : Fin 3) * 512 + 1 * (x 2).val) :
    iblk0 V c 0 t x = V c main_arg1 k := by
  unfold iblk0
  rw [View.read_apply]
  show V c main_arg1 _ = V c main_arg1 k
  refine congrArg (V c main_arg1) (funext fun a => Fin.ext ?_)
  match a with
  | ⟨0, _⟩ => exact h0.symm
  | ⟨1, _⟩ => exact h1.symm
  | ⟨2, _⟩ => exact h2.symm

/-- The matrix's block at a point is the whole matrix. -/
theorem matrix_read (c : Dev nD) (t : Fin cfg0.N) (x : S512x512.Idx) (k : S512x512.Idx)
    (h0 : (k 0).val = win0_1.index t (0 : Fin 2) * 512 + 1 * (x 0).val) (h1 : (k 1).val = win0_1.index t (1 : Fin 2) * 512 + 1 * (x 1).val) :
    iblk0 V c 1 t x = V c main_arg7 k := by
  unfold iblk0
  rw [View.read_apply]
  show V c main_arg7 _ = V c main_arg7 k
  refine congrArg (V c main_arg7) (funext fun a => Fin.ext ?_)
  match a with
  | ⟨0, _⟩ => exact h0.symm
  | ⟨1, _⟩ => exact h1.symm

/-- The bias row's block at a point is the whole row. -/
theorem bias_read (c : Dev nD) (t : Fin cfg0.N) (x : S1x512.Idx) (k : S1x512.Idx)
    (h0 : (k 0).val = win0_2.index t (0 : Fin 2) * 1 + 1 * (x 0).val) (h1 : (k 1).val = win0_2.index t (1 : Fin 2) * 512 + 1 * (x 1).val) :
    iblk0 V c 2 t x = V c main_v1 k := by
  unfold iblk0
  rw [View.read_apply]
  show V c main_v1 _ = V c main_v1 k
  refine congrArg (V c main_v1) (funext fun a => Fin.ext ?_)
  match a with
  | ⟨0, _⟩ => exact h0.symm
  | ⟨1, _⟩ => exact h1.symm

/-- WHAT A POINT WRITES BACK to the keys' array is its block of the projected class rows. -/
theorem flushed_keys (c : Dev nD) (t : Fin cfg0.N) :
    (dat0 V c).flushed 6 t = ((cfg0.win 6).blk t).view.read (Elt Ideal) (projArr (V c main_arg1) (V c main_arg7) (V c main_v1)) := by
  show (cfg0.win 6).cut (grid0.coords t) ((dat0 V c).after 6 t) = _
  rw [after0_6]
  unfold out0_6
  rw [View.canon_unit_zero hz3]
  simp only [View.ld_unit_zero (S := S1x20x512) hz3, View.ld_unit_zero (S := S512x512) hz2, View.ld_unit_zero (S := S1x512) hz2]
  funext y
  obtain ⟨u, cc, e, rfl⟩ : ∃ (u : Fin 1) (cc : Fin 20) (e : Fin 512), (y : S1x20x512.Idx) = ix3 u cc e := ⟨y 0, y 1, y 2, eq_ix3 y⟩
  obtain rfl : u = 0 := Subsingleton.elim _ _
  show k0_pay1 (F := Ideal) (iblk0 V c 0 t) (iblk0 V c 1 t) (iblk0 V c 2 t) (ix3 (0 : Fin 1) cc e)
      = projArr (V c main_arg1) (V c main_arg7) (V c main_v1) (((cfg0.win 6).blk t).view.emb (ix3 (0 : Fin 1) cc e))
  refine (ProjectionBlock.keys_at _ _ _ cc e).trans ?_
  obtain ⟨f0, f1, f2, f3, f4, f5, f6, f7, f8, f9⟩ := idx_facts0 t
  unfold projArr
  refine congrArg₂ (fun a b : EReal => a + b)
    (Finset.sum_congr rfl fun d _ => congrArg₂ (fun a b : EReal => a * b)
      (rows_read V c t _ _ ?_ ?_ ?_) (matrix_read V c t _ _ ?_ ?_))
    (bias_read V c t _ _ ?_ ?_)
  · show win0_6.index t (0 : Fin 3) * 1 + 1 * 0 = win0_0.index t (0 : Fin 3) * 1 + 1 * 0; omega
  · show win0_6.index t (1 : Fin 3) * 20 + 1 * cc.val = win0_0.index t (1 : Fin 3) * 20 + 1 * cc.val; omega
  · show d.val = win0_0.index t (2 : Fin 3) * 512 + 1 * d.val; omega
  · show d.val = win0_1.index t (0 : Fin 2) * 512 + 1 * d.val; omega
  · show win0_6.index t (2 : Fin 3) * 512 + 1 * e.val = win0_1.index t (1 : Fin 2) * 512 + 1 * e.val; omega
  · show 0 = win0_2.index t (0 : Fin 2) * 1 + 1 * 0; omega
  · show win0_6.index t (2 : Fin 3) * 512 + 1 * e.val = win0_2.index t (1 : Fin 2) * 512 + 1 * e.val; omega

/-! ## The values: the same body on the values' operands -/

theorem idx_facts0v : ∀ t : Fin cfg0.N,
    win0_3.index t (0 : Fin 3) = win0_7.index t (0 : Fin 3) ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_7.index t (1 : Fin 3) = 0 ∧ win0_7.index t (2 : Fin 3) = 0 ∧ win0_7.index t (0 : Fin 3) ≤ 7 :=
  (by decide +kernel : ∀ t : Fin grid0.N, _)

theorem rows_read_v (c : Dev nD) (t : Fin cfg0.N) (x : S1x20x512.Idx) (k : S8x20x512.Idx)
    (h0 : (k 0).val = win0_3.index t (0 : Fin 3) * 1 + 1 * (x 0).val) (h1 : (k 1).val = win0_3.index t (1 : Fin 3) * 20 + 1 * (x 1).val)
    (h2 : (k 2).val = win0_3.index t (2 : Fin 3) * 512 + 1 * (x 2).val) :
    iblk0 V c 3 t x = V c main_arg2 k := by
  unfold iblk0
  rw [View.read_apply]
  show V c main_arg2 _ = V c main_arg2 k
  refine congrArg (V c main_arg2) (funext fun a => Fin.ext ?_)
  match a with
  | ⟨0, _⟩ => exact h0.symm
  | ⟨1, _⟩ => exact h1.symm
  | ⟨2, _⟩ => exact h2.symm

theorem matrix_read_v (c : Dev nD) (t : Fin cfg0.N) (x : S512x512.Idx) (k : S512x512.Idx)
    (h0 : (k 0).val = win0_4.index t (0 : Fin 2) * 512 + 1 * (x 0).val) (h1 : (k 1).val = win0_4.index t (1 : Fin 2) * 512 + 1 * (x 1).val) :
    iblk0 V c 4 t x = V c main_arg9 k := by
  unfold iblk0
  rw [View.read_apply]
  show V c main_arg9 _ = V c main_arg9 k
  refine congrArg (V c main_arg9) (funext fun a => Fin.ext ?_)
  match a with
  | ⟨0, _⟩ => exact h0.symm
  | ⟨1, _⟩ => exact h1.symm

theorem bias_read_v (c : Dev nD) (t : Fin cfg0.N) (x : S1x512.Idx) (k : S1x512.Idx)
    (h0 : (k 0).val = win0_5.index t (0 : Fin 2) * 1 + 1 * (x 0).val) (h1 : (k 1).val = win0_5.index t (1 : Fin 2) * 512 + 1 * (x 1).val) :
    iblk0 V c 5 t x = V c main_v2 k := by
  unfold iblk0
  rw [View.read_apply]
  show V c main_v2 _ = V c main_v2 k
  refine congrArg (V c main_v2) (funext fun a => Fin.ext ?_)
  match a with
  | ⟨0, _⟩ => exact h0.symm
  | ⟨1, _⟩ => exact h1.symm

/-- WHAT A POINT WRITES BACK to the values' array is its block of the projected class rows. -/
theorem flushed_values (c : Dev nD) (t : Fin cfg0.N) :
    (dat0 V c).flushed 7 t = ((cfg0.win 7).blk t).view.read (Elt Ideal) (projArr (V c main_arg2) (V c main_arg9) (V c main_v2)) := by
  show (cfg0.win 7).cut (grid0.coords t) ((dat0 V c).after 7 t) = _
  rw [after0_7]
  unfold out0_7
  rw [View.canon_unit_zero hz3]
  simp only [View.ld_unit_zero (S := S1x20x512) hz3, View.ld_unit_zero (S := S512x512) hz2, View.ld_unit_zero (S := S1x512) hz2]
  funext y
  obtain ⟨u, cc, e, rfl⟩ : ∃ (u : Fin 1) (cc : Fin 20) (e : Fin 512), (y : S1x20x512.Idx) = ix3 u cc e := ⟨y 0, y 1, y 2, eq_ix3 y⟩
  obtain rfl : u = 0 := Subsingleton.elim _ _
  show k0_pay2 (F := Ideal) (iblk0 V c 3 t) (iblk0 V c 4 t) (iblk0 V c 5 t) (ix3 (0 : Fin 1) cc e)
      = projArr (V c main_arg2) (V c main_arg9) (V c main_v2) (((cfg0.win 7).blk t).view.emb (ix3 (0 : Fin 1) cc e))
  refine (ProjectionBlock.values_at _ _ _ cc e).trans ?_
  obtain ⟨f0, f1, f2, f3, f4, f5, f6, f7, f8, f9⟩ := idx_facts0v t
  unfold projArr
  refine congrArg₂ (fun a b : EReal => a + b)
    (Finset.sum_congr rfl fun d _ => congrArg₂ (fun a b : EReal => a * b)
      (rows_read_v V c t _ _ ?_ ?_ ?_) (matrix_read_v V c t _ _ ?_ ?_))
    (bias_read_v V c t _ _ ?_ ?_)
  · show win0_7.index t (0 : Fin 3) * 1 + 1 * 0 = win0_3.index t (0 : Fin 3) * 1 + 1 * 0; omega
  · show win0_7.index t (1 : Fin 3) * 20 + 1 * cc.val = win0_3.index t (1 : Fin 3) * 20 + 1 * cc.val; omega
  · show d.val = win0_3.index t (2 : Fin 3) * 512 + 1 * d.val; omega
  · show d.val = win0_4.index t (0 : Fin 2) * 512 + 1 * d.val; omega
  · show win0_7.index t (2 : Fin 3) * 512 + 1 * e.val = win0_4.index t (1 : Fin 2) * 512 + 1 * e.val; omega
  · show 0 = win0_5.index t (0 : Fin 2) * 1 + 1 * 0; omega
  · show win0_7.index t (2 : Fin 3) * 512 + 1 * e.val = win0_5.index t (1 : Fin 2) * 512 + 1 * e.val; omega

/-! ## The blocks tile the two arrays: one batch per point -/

theorem idx_onto0 : ∀ q0 : Fin 8, ∃ t : Fin cfg0.N, win0_6.index t = ![q0.val, 0, 0] :=
  (by decide +kernel : ∀ q0 : Fin 8, ∃ t : Fin grid0.N, win0_6.index t = ![q0.val, 0, 0])
theorem idx_onto0v : ∀ q0 : Fin 8, ∃ t : Fin cfg0.N, win0_7.index t = ![q0.val, 0, 0] :=
  (by decide +kernel : ∀ q0 : Fin 8, ∃ t : Fin grid0.N, win0_7.index t = ![q0.val, 0, 0])

theorem mem_keys_blk (t : Fin cfg0.N) (i : S8x20x512.Idx) :
    i ∈ ((cfg0.win 6).blk t).view.set ↔ ∀ a : Fin 3, win0_6.index t a * S1x20x512.size a ≤ (i a).val ∧ (i a).val < win0_6.index t a * S1x20x512.size a + S1x20x512.size a := by
  show i ∈ ((View.whole main_v3_0).slice (win0_6.rect t)).set ↔ _
  rw [View.set_slice_whole, Rect.mem_set_unit]
  exact Iff.rfl
theorem mem_values_blk (t : Fin cfg0.N) (i : S8x20x512.Idx) :
    i ∈ ((cfg0.win 7).blk t).view.set ↔ ∀ a : Fin 3, win0_7.index t a * S1x20x512.size a ≤ (i a).val ∧ (i a).val < win0_7.index t a * S1x20x512.size a + S1x20x512.size a := by
  show i ∈ ((View.whole main_v3_1).slice (win0_7.rect t)).set ↔ _
  rw [View.set_slice_whole, Rect.mem_set_unit]
  exact Iff.rfl

theorem keys_cover (i : S8x20x512.Idx) : ∃ t : Fin cfg0.N, (cfg0.win 6).flush t = true ∧ i ∈ ((cfg0.win 6).blk t).view.set := by
  have hi0 : (i 0).val < 8 := (i 0).isLt
  have hi1 : (i 1).val < 20 := (i 1).isLt
  have hi2 : (i 2).val < 512 := (i 2).isLt
  obtain ⟨t, ht⟩ := idx_onto0 ⟨(i 0).val, hi0⟩
  have q0 : win0_6.index t (0 : Fin 3) = (i 0).val := congrFun ht 0
  have q1 : win0_6.index t (1 : Fin 3) = 0 := congrFun ht 1
  have q2 : win0_6.index t (2 : Fin 3) = 0 := congrFun ht 2
  refine ⟨t, flush0_6 t, ?_⟩
  rw [mem_keys_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 20 ≤ (i 1).val ∧ (i 1).val < win0_6.index t (1 : Fin 3) * 20 + 20; omega
  | ⟨2, _⟩ => show win0_6.index t (2 : Fin 3) * 512 ≤ (i 2).val ∧ (i 2).val < win0_6.index t (2 : Fin 3) * 512 + 512; omega

theorem values_cover (i : S8x20x512.Idx) : ∃ t : Fin cfg0.N, (cfg0.win 7).flush t = true ∧ i ∈ ((cfg0.win 7).blk t).view.set := by
  have hi0 : (i 0).val < 8 := (i 0).isLt
  have hi1 : (i 1).val < 20 := (i 1).isLt
  have hi2 : (i 2).val < 512 := (i 2).isLt
  obtain ⟨t, ht⟩ := idx_onto0v ⟨(i 0).val, hi0⟩
  have q0 : win0_7.index t (0 : Fin 3) = (i 0).val := congrFun ht 0
  have q1 : win0_7.index t (1 : Fin 3) = 0 := congrFun ht 1
  have q2 : win0_7.index t (2 : Fin 3) = 0 := congrFun ht 2
  refine ⟨t, flush0_7 t, ?_⟩
  rw [mem_values_blk]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 20 ≤ (i 1).val ∧ (i 1).val < win0_7.index t (1 : Fin 3) * 20 + 20; omega
  | ⟨2, _⟩ => show win0_7.index t (2 : Fin 3) * 512 ≤ (i 2).val ∧ (i 2).val < win0_7.index t (2 : Fin 3) * 512 + 512; omega

/-- THE KEYS' ARRAY after the projection region: the projected class rows of the keys, whole. -/
theorem keys_array (c : Dev nD) :
    (dat0 V c).arrAt 6 cfg0.N = projArr (V c main_arg1) (V c main_arg7) (V c main_v1) :=
  (dat0 V c).arrAt_eq_of_cover 6 _ (fun t _ => flushed_keys V c t) keys_cover

/-- THE VALUES' ARRAY after the projection region. -/
theorem values_array (c : Dev nD) :
    (dat0 V c).arrAt 7 cfg0.N = projArr (V c main_arg2) (V c main_arg9) (V c main_v2) :=
  (dat0 V c).arrAt_eq_of_cover 7 _ (fun t _ => flushed_values V c t) values_cover

end Cert.KernelIdeal.ProjectionRegion

end
-- ==== Proof.AttentionSpec.lean ====
/-
  The function both programs compute, index by index, on the extended reals.

  Inputs: tokens q[b, n, d] (8 × 8192 × 512), class keys k[b, c, d] and class values v[b, c, d] (8 × 20 × 512), an additive
  class mask mask[b, 0, c] (8 × 1 × 20), a coarse prediction cp[b, c, n] (8 × 20 × 8192), and three affine maps (W, β) of
  the feature axis (512 × 512 and 512).

    qp[b, n, e] = Σ_d q[b, n, d] · Wq[d, e] + βq[e]          kp, vp likewise from k, v
    logit[b, n, c]  = (Σ_e qp[b, n, e] · kp[b, c, e]) · s + mask[b, 0, c]         s the scale 1/√512 as ONE f32 word
    a1[b, n, ·]     = softmax over the 20 classes of logit[b, n, ·]
    g[b, n, ·]      = softmax over the 20 classes of cp[b, ·, n]
    a2[b, n, ·]     = softmax over the 20 classes of a1[b, n, ·] · g[b, n, ·] + mask[b, 0, ·]
    out[b, n, e]    = Σ_c a2[b, n, c] · vp[b, c, e]

  A softmax of a row x is exp(x_c − M) / Σ_k exp(x_k − M) with M = max(−∞, max_k x_k), the maximum folded from −∞: the
  form in which both a lane reduction and a host reduction read at an index. Nothing here is evaluated: the scale and
  −∞ stay the f32 words the two programs share.
-/
import Idealize.ShloMosaic.PureOps.Ideal
import Idealize.ShloMosaic.Lib.ValueIdx

noncomputable section

namespace Cert.ClassAttention

open Idealize.ShloMosaic Idealize.ShloMosaic.ValueIdx

/-- −∞, as the f32 word a row maximum is folded from. -/
def negInf : EReal := Ideal.ofBits .f32 0xFF800000#32

/-- The logit scale, the f32 word nearest 1/√512, never evaluated. -/
def scale : EReal := Ideal.ofBits .f32 0x3D3504F3#32

/-- The maximum of a row of 20 entries, folded from −∞ and joined with −∞ once more. -/
def rowMax (x : Fin 20 → EReal) : EReal := max negInf ((Finset.univ : Finset (Fin 20)).fold max negInf x)

/-- The softmax of a row of 20 entries at class `c`: the shifted exponential over the sum of the shifted exponentials. -/
def softmaxRow (x : Fin 20 → EReal) (c : Fin 20) : EReal :=
  Ideal.div (Ideal.exp (x c - rowMax x)) (∑ k : Fin 20, Ideal.exp (x k - rowMax x))

/-- An affine map of the feature axis applied to a token: Σ_d x[b, n, d] · W[d, e] + β[e]. -/
def projTok (x : (⟨3, ![8, 8192, 512]⟩ : Shape).Idx → EReal) (W : (⟨2, ![512, 512]⟩ : Shape).Idx → EReal)
    (β : (⟨1, ![512]⟩ : Shape).Idx → EReal) (b : Fin 8) (n : Fin 8192) (e : Fin 512) : EReal :=
  (∑ d : Fin 512, x (ix3 b n d) * W (ix2 d e)) + β (ix1 e)

/-- The same affine map applied to a class row: Σ_d x[b, c, d] · W[d, e] + β[e]. -/
def projCls (x : (⟨3, ![8, 20, 512]⟩ : Shape).Idx → EReal) (W : (⟨2, ![512, 512]⟩ : Shape).Idx → EReal)
    (β : (⟨1, ![512]⟩ : Shape).Idx → EReal) (b : Fin 8) (c : Fin 20) (e : Fin 512) : EReal :=
  (∑ d : Fin 512, x (ix3 b c d) * W (ix2 d e)) + β (ix1 e)

section
variable (q : (⟨3, ![8, 8192, 512]⟩ : Shape).Idx → EReal) (k v : (⟨3, ![8, 20, 512]⟩ : Shape).Idx → EReal)
  (mask : (⟨3, ![8, 1, 20]⟩ : Shape).Idx → EReal) (cp : (⟨3, ![8, 20, 8192]⟩ : Shape).Idx → EReal)
  (Wq : (⟨2, ![512, 512]⟩ : Shape).Idx → EReal) (βq : (⟨1, ![512]⟩ : Shape).Idx → EReal)
  (Wk : (⟨2, ![512, 512]⟩ : Shape).Idx → EReal) (βk : (⟨1, ![512]⟩ : Shape).Idx → EReal)
  (Wv : (⟨2, ![512, 512]⟩ : Shape).Idx → EReal) (βv : (⟨1, ![512]⟩ : Shape).Idx → EReal)

/-- The masked, scaled logit of token (b, n) against class c. -/
def logit (b : Fin 8) (n : Fin 8192) (c : Fin 20) : EReal :=
  (∑ e : Fin 512, projTok q Wq βq b n e * projCls k Wk βk b c e) * scale + mask (ix3 b (0 : Fin 1) c)

/-- The first attention row of token (b, n): the softmax of its logits over the classes. -/
def attn1 (b : Fin 8) (n : Fin 8192) : Fin 20 → EReal := softmaxRow (fun c => logit q k mask Wq βq Wk βk b n c)

/-- The coarse prediction of token (b, n), normalised over the classes. -/
def coarse (b : Fin 8) (n : Fin 8192) : Fin 20 → EReal := softmaxRow (fun c => cp (ix3 b c n))

/-- The second logit: the two class distributions multiplied, the mask added again. -/
def logit2 (b : Fin 8) (n : Fin 8192) (c : Fin 20) : EReal :=
  attn1 q k mask Wq βq Wk βk b n c * coarse cp b n c + mask (ix3 b (0 : Fin 1) c)

/-- The second attention row of token (b, n). -/
def attn2 (b : Fin 8) (n : Fin 8192) : Fin 20 → EReal := softmaxRow (logit2 q k mask cp Wq βq Wk βk b n)

/-- The output at (b, n, e): the class values, projected, averaged by the second attention row. -/
def outAt (b : Fin 8) (n : Fin 8192) (e : Fin 512) : EReal :=
  ∑ c : Fin 20, attn2 q k mask cp Wq βq Wk βk b n c * projCls v Wv βv b c e

/-- The whole output array as one function of the argument arrays. -/
def out : (⟨3, ![8, 8192, 512]⟩ : Shape).Idx → EReal :=
  fun i => outAt q k v mask cp Wq βq Wk βk Wv βv (i 0) (i 1) (i 2)

end

end Cert.ClassAttention

end
-- ==== Proof.RowSoftmax.lean ====
/-
  A softmax over the 20 classes, taken row by row on a block of 1024 rows, read at an entry.

  On the vector unit a row softmax is spelt with two lane reductions: the row maximum (folded from −∞, joined with −∞
  once more), kept as a column and broadcast back over the classes; the exponential of the shifted entries; their row
  sum, again kept as a column and broadcast back; the quotient. Read at entry (r, c) this is the softmax of row r at
  class c: the maximum and the sum run over the 20 entries of that row and of no other.
-/
import Idealize.ShloMosaic.PureOps.Ideal.Laws
import Idealize.ShloMosaic.Lib.ValueIdx
import Idealize.ShloMosaic.Lib.ValueLayout
import Idealize.ShloMosaic.Lib.Pipeline.Value
import proofs.«111245_j30666066494067_1_alg».proof.Proof.AttentionSpec

noncomputable section

namespace Cert.ClassAttention

open Idealize.ShloMosaic Idealize.ShloMosaic.ValueIdx

variable {α : Type}

/-! ## A column kept by a reduction: the two layout steps -/

/-- A vector of `a` entries cast to a column reads, at (i, u), entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over `b` classes reads, at (p, c), the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The row softmax of a block -/

/-- The row softmax of a 1024 × 20 block as the vector unit spells it. -/
def blockSoftmax (hred : (⟨2, ![1024, 20]⟩ : Shape).Reduces [1] ⟨1, ![1024]⟩)
    (hc : (⟨1, ![1024]⟩ : Shape).ShapeCasts ⟨2, ![1024, 1]⟩) (hb : (⟨2, ![1024, 1]⟩ : Shape).Broadcasts ⟨2, ![1024, 20]⟩)
    (X : FVec Ideal ⟨2, ![1024, 20]⟩ .f32) : FVec Ideal ⟨2, ![1024, 20]⟩ .f32 :=
  have M : FVec Ideal ⟨1, ![1024]⟩ .f32 :=
    maximumf (broadcast ⟨1, ![1024]⟩ (Scalar.ofBits (F := Ideal) .f32 0xFF800000#32))
      (multiReduction .maximumf [1] ⟨1, ![1024]⟩ X 0xFF800000#32 hred (.inl rfl) rfl)
  have E : FVec Ideal ⟨2, ![1024, 20]⟩ .f32 :=
    exp (subf X (broadcastTo ⟨2, ![1024, 20]⟩ (shapeCast ⟨2, ![1024, 1]⟩ M hc) hb))
  divf E (broadcastTo ⟨2, ![1024, 20]⟩
    (shapeCast ⟨2, ![1024, 1]⟩ (multiReduction .add [1] ⟨1, ![1024]⟩ E 0x00000000#32 hred (.inl rfl) rfl) hc) hb)

/-- The index a lane reduction inserts: row `r` with class `k` put back is (r, k). -/
theorem lift_row (hred : (⟨2, ![1024, 20]⟩ : Shape).Reduces [1] ⟨1, ![1024]⟩) (r : Fin 1024)
    (k : Fin ((⟨2, ![1024, 20]⟩ : Shape).size 1)) : hred.lift (ix1 r) k = ix2 r (⟨k.val, k.isLt⟩ : Fin 20) := by
  funext a; apply Fin.ext
  match a with
  | ⟨0, _⟩ => rfl
  | ⟨1, _⟩ => rfl

/-- The maximum of row `r`, folded from −∞ over its 20 entries. -/
theorem rowMax_of_reduction (hred : (⟨2, ![1024, 20]⟩ : Shape).Reduces [1] ⟨1, ![1024]⟩)
    (X : FVec Ideal ⟨2, ![1024, 20]⟩ .f32) (r : Fin 1024) :
    max (Ideal.ofBits .f32 0xFF800000#32)
        (multiReduction (F := Ideal) .maximumf [1] ⟨1, ![1024]⟩ X 0xFF800000#32 hred (.inl rfl) rfl (ix1 r))
      = rowMax (fun c' => X (ix2 r c')) := by
  unfold rowMax negInf
  refine congrArg (max (Ideal.ofBits .f32 0xFF800000#32)) ?_
  refine (Ideal.multiReduction_maximumf_single X 0xFF800000#32 hred (.inl rfl) rfl (ix1 r)).trans ?_
  show (Finset.univ : Finset (Fin 20)).fold max (Ideal.ofBits .f32 0xFF800000#32) (X ∘ hred.lift (ix1 r)) = _
  refine congrArg (fun f => (Finset.univ : Finset (Fin 20)).fold max (Ideal.ofBits .f32 0xFF800000#32) f) ?_
  funext k
  exact congrArg X (lift_row hred r k)

/-- The sum of row `r` of a block over its 20 entries. -/
theorem rowSum_of_reduction (hred : (⟨2, ![1024, 20]⟩ : Shape).Reduces [1] ⟨1, ![1024]⟩)
    (E : FVec Ideal ⟨2, ![1024, 20]⟩ .f32) (r : Fin 1024) :
    multiReduction (F := Ideal) .add [1] ⟨1, ![1024]⟩ E 0x00000000#32 hred (.inl rfl) rfl (ix1 r)
      = ∑ k : Fin 20, E (ix2 r k) := by
  refine (Ideal.multiReduction_add_single E 0x00000000#32 hred (.inl rfl) rfl (ix1 r)).trans ?_
  show ∑ k : Fin 20, E (hred.lift (ix1 r) k) = _
  exact Finset.sum_congr rfl fun k _ => congrArg E (lift_row hred r k)

/-- THE ROW SOFTMAX AT AN ENTRY: entry (r, c) of the block's row softmax is the softmax of row `r` at class `c`. -/
theorem blockSoftmax_apply (hred : (⟨2, ![1024, 20]⟩ : Shape).Reduces [1] ⟨1, ![1024]⟩)
    (hc : (⟨1, ![1024]⟩ : Shape).ShapeCasts ⟨2, ![1024, 1]⟩) (hb : (⟨2, ![1024, 1]⟩ : Shape).Broadcasts ⟨2, ![1024, 20]⟩)
    (X : FVec Ideal ⟨2, ![1024, 20]⟩ .f32) (r : Fin 1024) (c : Fin 20) :
    blockSoftmax hred hc hb X (ix2 r c) = softmaxRow (fun c' => X (ix2 r c')) c := by
  -- the shifted exponential at any entry of row r
  have hE : ∀ c' : Fin 20,
      (exp (subf X (broadcastTo ⟨2, ![1024, 20]⟩ (shapeCast ⟨2, ![1024, 1]⟩
        (maximumf (broadcast ⟨1, ![1024]⟩ (Scalar.ofBits (F := Ideal) .f32 0xFF800000#32))
          (multiReduction .maximumf [1] ⟨1, ![1024]⟩ X 0xFF800000#32 hred (.inl rfl) rfl)) hc) hb)) : FVec Ideal ⟨2, ![1024, 20]⟩ .f32) (ix2 r c')
        = Ideal.exp (X (ix2 r c') - rowMax (fun c'' => X (ix2 r c''))) := by
    intro c'
    show Ideal.exp (X (ix2 r c') - broadcastTo ⟨2, ![1024, 20]⟩ (shapeCast ⟨2, ![1024, 1]⟩ _ hc) hb (ix2 r c')) = _
    rw [broadcastTo_a1_ab_apply, shapeCast_a_a1_apply]
    exact congrArg (fun M => Ideal.exp (X (ix2 r c') - M)) (rowMax_of_reduction hred X r)
  unfold blockSoftmax softmaxRow
  show Ideal.div _ (broadcastTo ⟨2, ![1024, 20]⟩ (shapeCast ⟨2, ![1024, 1]⟩ _ hc) hb (ix2 r c)) = _
  rw [broadcastTo_a1_ab_apply, shapeCast_a_a1_apply, rowSum_of_reduction, hE c]
  exact congrArg (Ideal.div _) (Finset.sum_congr rfl fun k _ => hE k)

end Cert.ClassAttention

end
-- ==== Proof.AttentionBlock.lean ====
/-
  What one grid point of the attention region stores, read at an entry.

  A point holds 1024 tokens of one batch: the token block x (1 × 1024 × 512), the matrix W and bias row β of the token
  projection, the projected keys K and values U of the batch (1 × 20 × 512 each), the mask row μ (1 × 1 × 20) and the
  block g of the transposed coarse prediction (1 × 1024 × 20). For token row r:

    logit[r, c]  = (Σ_e (Σ_d x[0, r, d] · W[d, e] + β[0, e]) · K[0, c, e]) · s + μ[0, 0, c]
    a1[r, ·]     = softmax of logit[r, ·]
    logit2[r, c] = a1[r, c] · softmax(g[0, r, ·])[c] + μ[0, 0, c]
    stored[0, r, e] = Σ_c softmax(logit2[r, ·])[c] · U[0, c, e]

  The keys enter the logits transposed, so the product's contraction runs over the feature axis of both operands.
-/
import proofs.«111245_j30666066494067_1_alg».proof.Proof.Gen.KernelIdeal.Skeleton
import proofs.«111245_j30666066494067_1_alg».proof.Proof.BlockMatmul
import proofs.«111245_j30666066494067_1_alg».proof.Proof.RowSoftmax
import Idealize.ShloMosaic.Lib.ValueLayout

noncomputable section

namespace Cert.KernelIdeal.AttentionBlock

open Cert.KernelIdeal Cert.KernelIdeal.Gen
open Idealize.ShloMosaic Idealize.ShloMosaic.ValueIdx Cert.ClassAttention

/-! ## The first logits and the first attention rows -/

/-- The block of masked, scaled logits, as the body computes it before its first softmax. -/
def blockLogits (x : Vec Ideal S1x1024x512 .f32) (W : Vec Ideal S512x512 .f32) (β : Vec Ideal S1x512 .f32)
    (K : Vec Ideal S1x20x512 .f32) (μ : Vec Ideal S1x1x20 .f32) : FVec Ideal S1024x20 .f32 :=
  addf
    (mulf
      (matmul (F := Ideal) dot_S1024x512_S512x20_S1024x20_1_0_0_1_n_n none
        (truncf .bf16
          (addf
            (matmul (F := Ideal) dot_S1024x512_S512x512_S1024x512_1_0_0_1_n_n none
              (truncf .bf16 (shapeCast S1024x512 x shapeCasts_S1x1024x512_S1024x512) bitsLt_bf16_f32)
              (truncf .bf16 W bitsLt_bf16_f32) (constant S1024x512 .f32 0x00000000#32))
            (broadcastTo S1024x512 (shapeCast S1x512 β shapeCasts_S1x512_S1x512) broadcasts_S1x512_S1024x512))
          bitsLt_bf16_f32)
        (transpose S512x20 [1, 0] (truncf .bf16 (shapeCast S20x512 K shapeCasts_S1x20x512_S20x512) bitsLt_bf16_f32)
          transposes_S20x512_p1_0_S512x20)
        (constant S1024x20 .f32 0x00000000#32))
      (broadcast S1024x20 (Scalar.ofBits (F := Ideal) .f32 0x3D3504F3#32)))
    (broadcastTo S1024x20 (k1_pay2 (F := Ideal) μ) broadcasts_S1x20_S1024x20)

/-- The first attention block is the row softmax of the logits block. -/
theorem attn1_eq (x : Vec Ideal S1x1024x512 .f32) (W : Vec Ideal S512x512 .f32) (β : Vec Ideal S1x512 .f32)
    (K : Vec Ideal S1x20x512 .f32) (μ : Vec Ideal S1x1x20 .f32) :
    k1_pay3 (F := Ideal) x W β K μ = blockSoftmax reduces_S1024x20_S1024 shapeCasts_S1024_S1024x1 broadcasts_S1024x1_S1024x20 (blockLogits x W β K μ) := rfl

/-- The mask row broadcast down the token rows, at (r, c): μ[0, 0, c]. -/
theorem mask_at (μ : Vec Ideal S1x1x20 .f32) (r : Fin 1024) (c : Fin 20) :
    broadcastTo S1024x20 (k1_pay2 (F := Ideal) μ) broadcasts_S1x20_S1024x20 (ix2 r c) = μ (ix3 (0 : Fin 1) (0 : Fin 1) c) := by
  unfold k1_pay2
  rw [broadcastTo_1b_ab_apply]
  exact shapeCast_1ab_ab_apply μ shapeCasts_S1x1x20_S1x20 (0 : Fin 1) c

/-- The projected token block at (r, e): Σ_d x[0, r, d] · W[d, e] + β[0, e]. -/
theorem tokens_at (x : Vec Ideal S1x1024x512 .f32) (W : Vec Ideal S512x512 .f32) (β : Vec Ideal S1x512 .f32) (r : Fin 1024) (e : Fin 512) :
    (addf
      (matmul (F := Ideal) dot_S1024x512_S512x512_S1024x512_1_0_0_1_n_n none
        (truncf .bf16 (shapeCast S1024x512 x shapeCasts_S1x1024x512_S1024x512) bitsLt_bf16_f32)
        (truncf .bf16 W bitsLt_bf16_f32) (constant S1024x512 .f32 0x00000000#32))
      (broadcastTo S1024x512 (shapeCast S1x512 β shapeCasts_S1x512_S1x512) broadcasts_S1x512_S1024x512) : FVec Ideal S1024x512 .f32) (ix2 r e)
      = (∑ d : Fin 512, x (ix3 (0 : Fin 1) r d) * W (ix2 d e)) + β (ix2 (0 : Fin 1) e) := by
  show matmul (F := Ideal) dot_S1024x512_S512x512_S1024x512_1_0_0_1_n_n none _ _ (constant S1024x512 .f32 0x00000000#32) (ix2 r e)
      + broadcastTo S1024x512 (shapeCast S1x512 β shapeCasts_S1x512_S1x512) broadcasts_S1x512_S1024x512 (ix2 r e) = _
  rw [BlockMatmul.matmul_1024x512_512x512, broadcastTo_1b_ab_apply, shapeCast_self]
  refine congrArg (· + β (ix2 (0 : Fin 1) e)) (Finset.sum_congr rfl fun d _ => ?_)
  show shapeCast S1024x512 x shapeCasts_S1x1024x512_S1024x512 (ix2 r d) * W (ix2 d e) = _
  rw [shapeCast_1ab_ab_apply]

/-- The logits block at (r, c). -/
theorem blockLogits_at (x : Vec Ideal S1x1024x512 .f32) (W : Vec Ideal S512x512 .f32) (β : Vec Ideal S1x512 .f32)
    (K : Vec Ideal S1x20x512 .f32) (μ : Vec Ideal S1x1x20 .f32) (r : Fin 1024) (c : Fin 20) :
    blockLogits x W β K μ (ix2 r c)
      = (∑ e : Fin 512, ((∑ d : Fin 512, x (ix3 (0 : Fin 1) r d) * W (ix2 d e)) + β (ix2 (0 : Fin 1) e)) * K (ix3 (0 : Fin 1) c e)) * scale
        + μ (ix3 (0 : Fin 1) (0 : Fin 1) c) := by
  unfold blockLogits scale
  show matmul (F := Ideal) dot_S1024x512_S512x20_S1024x20_1_0_0_1_n_n none _ _ (constant S1024x20 .f32 0x00000000#32) (ix2 r c)
        * Ideal.ofBits .f32 0x3D3504F3#32
      + broadcastTo S1024x20 (k1_pay2 (F := Ideal) μ) broadcasts_S1x20_S1024x20 (ix2 r c) = _
  rw [BlockMatmul.matmul_1024x512_512x20, mask_at]
  refine congrArg (fun S => S * Ideal.ofBits .f32 0x3D3504F3#32 + μ (ix3 (0 : Fin 1) (0 : Fin 1) c)) (Finset.sum_congr rfl fun e _ => ?_)
  have hkeys : (transpose S512x20 [1, 0]
        (truncf .bf16 (shapeCast S20x512 K shapeCasts_S1x20x512_S20x512) bitsLt_bf16_f32 : FVec Ideal S20x512 .bf16)
        transposes_S20x512_p1_0_S512x20 : FVec Ideal S512x20 .bf16) (ix2 e c) = K (ix3 (0 : Fin 1) c e) := by
    rw [transpose_ix2_apply]
    exact shapeCast_1ab_ab_apply K shapeCasts_S1x20x512_S20x512 c e
  exact congrArg₂ (fun a b : EReal => a * b) (tokens_at x W β r e) hkeys

/-- THE FIRST ATTENTION BLOCK AT (r, c): the softmax of token row r's logits at class c. -/
theorem attn1_at (x : Vec Ideal S1x1024x512 .f32) (W : Vec Ideal S512x512 .f32) (β : Vec Ideal S1x512 .f32)
    (K : Vec Ideal S1x20x512 .f32) (μ : Vec Ideal S1x1x20 .f32) (r : Fin 1024) (c : Fin 20) :
    k1_pay3 (F := Ideal) x W β K μ (ix2 r c)
      = softmaxRow (fun c' => (∑ e : Fin 512, ((∑ d : Fin 512, x (ix3 (0 : Fin 1) r d) * W (ix2 d e)) + β (ix2 (0 : Fin 1) e)) * K (ix3 (0 : Fin 1) c' e)) * scale
          + μ (ix3 (0 : Fin 1) (0 : Fin 1) c')) c := by
  rw [attn1_eq, blockSoftmax_apply]
  exact congrArg (fun f => softmaxRow f c) (funext fun c' => blockLogits_at x W β K μ r c')

/-! ## The second logits, the second attention rows and the stored block -/

/-- The block of second logits: the two class distributions multiplied entry by entry, the mask row added. -/
def blockLogits2 (μ' : FVec Ideal S1x20 .f32) (a1 g : FVec Ideal S1024x20 .f32) : FVec Ideal S1024x20 .f32 :=
  addf (mulf a1 (blockSoftmax reduces_S1024x20_S1024 shapeCasts_S1024_S1024x1 broadcasts_S1024x1_S1024x20 g)) (broadcastTo S1024x20 μ' broadcasts_S1x20_S1024x20)

/-- The stored block is the second attention block times the projected values, the leading unit axis put back. -/
theorem stored_eq (μ' : FVec Ideal S1x20 .f32) (a1 g : FVec Ideal S1024x20 .f32) (U : Vec Ideal S1x20x512 .f32) :
    k1_pay1 (F := Ideal) μ' a1 g U
      = shapeCast S1x1024x512
          (matmul (F := Ideal) dot_S1024x20_S20x512_S1024x512_1_0_0_1_n_n none
            (truncf .bf16 (blockSoftmax reduces_S1024x20_S1024 shapeCasts_S1024_S1024x1 broadcasts_S1024x1_S1024x20 (blockLogits2 μ' a1 g)) bitsLt_bf16_f32)
            (truncf .bf16 (shapeCast S20x512 U shapeCasts_S1x20x512_S20x512) bitsLt_bf16_f32)
            (constant S1024x512 .f32 0x00000000#32))
          shapeCasts_S1024x512_S1x1024x512 := rfl

/-- The second logits block at (r, c). -/
theorem blockLogits2_at (μ' : FVec Ideal S1x20 .f32) (a1 g : FVec Ideal S1024x20 .f32) (r : Fin 1024) (c : Fin 20) :
    blockLogits2 μ' a1 g (ix2 r c) = a1 (ix2 r c) * softmaxRow (fun c' => g (ix2 r c')) c + μ' (ix2 (0 : Fin 1) c) := by
  unfold blockLogits2
  show a1 (ix2 r c) * (blockSoftmax reduces_S1024x20_S1024 shapeCasts_S1024_S1024x1 broadcasts_S1024x1_S1024x20 g) (ix2 r c) + broadcastTo S1024x20 μ' broadcasts_S1x20_S1024x20 (ix2 r c) = _
  rw [blockSoftmax_apply, broadcastTo_1b_ab_apply]

/-- THE STORED BLOCK AT (0, r, e): the projected values averaged by token row r's second attention row. -/
theorem stored_at (μ' : FVec Ideal S1x20 .f32) (a1 g : FVec Ideal S1024x20 .f32) (U : Vec Ideal S1x20x512 .f32) (r : Fin 1024) (e : Fin 512) :
    k1_pay1 (F := Ideal) μ' a1 g U (ix3 (0 : Fin 1) r e)
      = ∑ c : Fin 20, softmaxRow (fun c' => a1 (ix2 r c') * softmaxRow (fun c'' => g (ix2 r c'')) c' + μ' (ix2 (0 : Fin 1) c')) c
          * U (ix3 (0 : Fin 1) c e) := by
  rw [stored_eq]
  refine (shapeCast_ab_1ab_apply _ shapeCasts_S1024x512_S1x1024x512 (0 : Fin 1) r e).trans ?_
  rw [BlockMatmul.matmul_1024x20_20x512]
  refine Finset.sum_congr rfl fun c _ => ?_
  show (blockSoftmax reduces_S1024x20_S1024 shapeCasts_S1024_S1024x1 broadcasts_S1024x1_S1024x20 (blockLogits2 μ' a1 g)) (ix2 r c) * shapeCast S20x512 U shapeCasts_S1x20x512_S20x512 (ix2 c e) = _
  rw [blockSoftmax_apply, shapeCast_1ab_ab_apply]
  exact congrArg (fun f => softmaxRow f c * U (ix3 (0 : Fin 1) c e)) (funext fun c' => blockLogits2_at μ' a1 g r c')

end Cert.KernelIdeal.AttentionBlock

end
-- ==== Proof.RowAttention.lean ====
/-
  The output entry of one token as a function of the rows it depends on.

  The entry out[b, n, e] depends on the token's 512 features, the token projection (a 512 × 512 matrix and a bias
  row), the 20 projected class keys, the 20 mask entries of the batch, the 20 coarse-prediction entries of the token
  and the 20 projected class values at feature e — and on nothing else. Written over those rows,

    rowOut = Σ_c softmax( softmax( (Σ_e (Σ_d tok_d · W_{d,e} + β_e) · key_{c'',e}) · s + mask_{c''} )_{c'} · softmax(coarse)_{c'} + mask_{c'} )_c · val_c .

  Both programs' results are this function of the same rows, read out of differently shaped arrays.
-/
import proofs.«111245_j30666066494067_1_alg».proof.Proof.AttentionSpec

noncomputable section

namespace Cert.ClassAttention

open Idealize.ShloMosaic Idealize.ShloMosaic.ValueIdx

/-- The output entry of one token from the rows it depends on. -/
def rowOut (tok : Fin 512 → EReal) (Wm : Fin 512 → Fin 512 → EReal) (bias : Fin 512 → EReal)
    (keys : Fin 20 → Fin 512 → EReal) (msk : Fin 20 → EReal) (crs : Fin 20 → EReal) (vals : Fin 20 → EReal) : EReal :=
  ∑ c : Fin 20,
    softmaxRow (fun c' =>
      softmaxRow (fun c'' => (∑ e : Fin 512, ((∑ d : Fin 512, tok d * Wm d e) + bias e) * keys c'' e) * scale + msk c'') c'
        * softmaxRow crs c' + msk c') c
      * vals c

/-- Equal rows give equal entries. -/
theorem rowOut_congr {tok tok' : Fin 512 → EReal} {Wm Wm' : Fin 512 → Fin 512 → EReal} {bias bias' : Fin 512 → EReal}
    {keys keys' : Fin 20 → Fin 512 → EReal} {msk msk' crs crs' vals vals' : Fin 20 → EReal}
    (h1 : tok = tok') (h2 : Wm = Wm') (h3 : bias = bias') (h4 : keys = keys') (h5 : msk = msk') (h6 : crs = crs') (h7 : vals = vals') :
    rowOut tok Wm bias keys msk crs vals = rowOut tok' Wm' bias' keys' msk' crs' vals' := by
  subst h1 h2 h3 h4 h5 h6 h7; rfl

/-- The specification's entry is `rowOut` of the argument arrays' rows. -/
theorem outAt_eq_rowOut (q : (⟨3, ![8, 8192, 512]⟩ : Shape).Idx → EReal) (k v : (⟨3, ![8, 20, 512]⟩ : Shape).Idx → EReal)
    (mask : (⟨3, ![8, 1, 20]⟩ : Shape).Idx → EReal) (cp : (⟨3, ![8, 20, 8192]⟩ : Shape).Idx → EReal)
    (Wq : (⟨2, ![512, 512]⟩ : Shape).Idx → EReal) (βq : (⟨1, ![512]⟩ : Shape).Idx → EReal)
    (Wk : (⟨2, ![512, 512]⟩ : Shape).Idx → EReal) (βk : (⟨1, ![512]⟩ : Shape).Idx → EReal)
    (Wv : (⟨2, ![512, 512]⟩ : Shape).Idx → EReal) (βv : (⟨1, ![512]⟩ : Shape).Idx → EReal)
    (b : Fin 8) (n : Fin 8192) (e : Fin 512) :
    outAt q k v mask cp Wq βq Wk βk Wv βv b n e
      = rowOut (fun d => q (ix3 b n d)) (fun d e' => Wq (ix2 d e')) (fun e' => βq (ix1 e'))
          (fun c e' => projCls k Wk βk b c e') (fun c => mask (ix3 b (0 : Fin 1) c)) (fun c => cp (ix3 b c n))
          (fun c => projCls v Wv βv b c e) := rfl

end Cert.ClassAttention

end
-- ==== Proof.AttentionRow.lean ====
/-
  What one grid point of the attention region stores at (0, r, e), as the output entry of token row r.

  The stored entry depends on row r of the token block, the whole projection matrix and bias row, the 20 projected keys
  and values of the batch, the 20 mask entries and row r of the coarse-prediction block: it is `rowOut` of those rows.
  The first attention block, the coarse block and the mask row reach the second softmax through the body's intermediate
  values; read at an entry each is the row it was loaded from.
-/
import proofs.«111245_j30666066494067_1_alg».proof.Proof.AttentionBlock
import proofs.«111245_j30666066494067_1_alg».proof.Proof.RowAttention

noncomputable section

namespace Cert.KernelIdeal.AttentionRow

open Cert.KernelIdeal Cert.KernelIdeal.Gen
open Idealize.ShloMosaic Idealize.ShloMosaic.ValueIdx Cert.ClassAttention

/-- The coarse-prediction block with its leading unit axis dropped, at (r, c): g[0, r, c]. -/
theorem coarse_at (g : Vec Ideal S1x1024x20 .f32) (r : Fin 1024) (c : Fin 20) :
    k1_pay4 (F := Ideal) g (ix2 r c) = g (ix3 (0 : Fin 1) r c) := by
  unfold k1_pay4
  exact shapeCast_1ab_ab_apply g shapeCasts_S1x1024x20_S1024x20 r c

/-- The mask row with its leading unit axis dropped, at (0, c): μ[0, 0, c]. -/
theorem maskRow_at (μ : Vec Ideal S1x1x20 .f32) (c : Fin 20) :
    k1_pay2 (F := Ideal) μ (ix2 (0 : Fin 1) c) = μ (ix3 (0 : Fin 1) (0 : Fin 1) c) := by
  unfold k1_pay2
  exact shapeCast_1ab_ab_apply μ shapeCasts_S1x1x20_S1x20 (0 : Fin 1) c

/-- THE STORED ENTRY of token row r at feature e is `rowOut` of the rows the point holds. -/
theorem stored_rowOut (x : Vec Ideal S1x1024x512 .f32) (W : Vec Ideal S512x512 .f32) (β : Vec Ideal S1x512 .f32)
    (K U : Vec Ideal S1x20x512 .f32) (μ : Vec Ideal S1x1x20 .f32) (g : Vec Ideal S1x1024x20 .f32) (r : Fin 1024) (e : Fin 512) :
    k1_pay1 (F := Ideal) (k1_pay2 μ) (k1_pay3 x W β K μ) (k1_pay4 g) U (ix3 (0 : Fin 1) r e)
      = rowOut (fun d => x (ix3 (0 : Fin 1) r d)) (fun d e' => W (ix2 d e')) (fun e' => β (ix2 (0 : Fin 1) e'))
          (fun c e' => K (ix3 (0 : Fin 1) c e')) (fun c => μ (ix3 (0 : Fin 1) (0 : Fin 1) c)) (fun c => g (ix3 (0 : Fin 1) r c))
          (fun c => U (ix3 (0 : Fin 1) c e)) := by
  rw [AttentionBlock.stored_at]
  unfold rowOut
  refine Finset.sum_congr rfl fun c _ => ?_
  refine congrArg (fun f => softmaxRow f c * U (ix3 (0 : Fin 1) c e)) (funext fun c' => ?_)
  rw [AttentionBlock.attn1_at, maskRow_at]
  exact congrArg (fun f => softmaxRow _ c' * softmaxRow f c' + μ (ix3 (0 : Fin 1) (0 : Fin 1) c'))
    (funext fun c'' => coarse_at g r c'')

end Cert.KernelIdeal.AttentionRow

end
-- ==== Proof.AttentionRegion.lean ====
/-
  The attention region's result array, whole.

  The region has 8 × 8 grid points: point (b, j) stages token rows 1024·j … 1024·j + 1023 of batch b (a 1 × 1024 × 512
  block of the tokens and the matching 1 × 1024 × 20 block of the transposed coarse prediction), batch b of the projected
  keys, of the projected values and of the mask, and the whole token-projection matrix and bias row; it writes back one
  1 × 1024 × 512 block of the result. Read through the windows' index maps, what point (b, j) writes back is its block of
  ONE array function: at (b, n, e), `rowOut` of token (b, n)'s rows in the arrays the region finds at entry. The 64 blocks
  tile the 8 × 8192 × 512 array (the block of token row n is n / 1024), so after the region the result array IS that
  function.
-/
import proofs.«111245_j30666066494067_1_alg».proof.Proof.Gen.KernelIdeal.Frame
import proofs.«111245_j30666066494067_1_alg».proof.Proof.AttentionRow
import Idealize.ShloMosaic.Lib.Pipeline.Value
import Idealize.ShloMosaic.Lib.ValueLayout

set_option maxRecDepth 16384

noncomputable section

namespace Cert.KernelIdeal.AttentionRegion

open Cert.KernelIdeal Cert.KernelIdeal.Gen Idealize.ShloMosaic Idealize.ShloMosaic.TcCoe Idealize.SL.Sem Idealize.ShloMosaic.ValueIdx
open Idealize.ShloMosaic.Pipeline (Dat)
open Cert.ClassAttention

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The attention region's result as one array: at (b, n, e), `rowOut` of token (b, n)'s rows in the arrays the region finds. -/
def attnArr (q : S8x8192x512.Idx → EReal) (W : S512x512.Idx → EReal) (β2 : S1x512.Idx → EReal) (K U : S8x20x512.Idx → EReal)
    (μ : S8x1x20.Idx → EReal) (g : S8x8192x20.Idx → EReal) : S8x8192x512.Idx → EReal := fun i =>
  rowOut (fun d => q (ix3 (i 0) (i 1) d)) (fun d e => W (ix2 d e)) (fun e => β2 (ix2 (0 : Fin 1) e))
    (fun c e => K (ix3 (i 0) c e)) (fun c => μ (ix3 (i 0) (0 : Fin 1) c)) (fun c => g (ix3 (i 0) (i 1) c))
    (fun c => U (ix3 (i 0) c (i 2)))

/-- The windows' index maps over the 64 points: the token block and the coarse block move with the result's block on the
    batch and token axes; the keys, the values and the mask move with it on the batch axis only; the matrix and the bias
    row never move; the result's block index stays inside the 8 × 8 grid of blocks. -/
theorem idx_facts1 : ∀ t : Fin cfg1.N,
    win1_0.index t (0 : Fin 3) = win1_7.index t (0 : Fin 3) ∧ win1_0.index t (1 : Fin 3) = win1_7.index t (1 : Fin 3) ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = win1_7.index t (0 : Fin 3) ∧ win1_3.index t (1 : Fin 3) = 0 ∧ win1_3.index t (2 : Fin 3) = 0
    ∧ win1_4.index t (0 : Fin 3) = win1_7.index t (0 : Fin 3) ∧ win1_4.index t (1 : Fin 3) = 0 ∧ win1_4.index t (2 : Fin 3) = 0
    ∧ win1_5.index t (0 : Fin 3) = win1_7.index t (0 : Fin 3) ∧ win1_5.index t (1 : Fin 3) = 0 ∧ win1_5.index t (2 : Fin 3) = 0
    ∧ win1_6.index t (0 : Fin 3) = win1_7.index t (0 : Fin 3) ∧ win1_6.index t (1 : Fin 3) = win1_7.index t (1 : Fin 3) ∧ win1_6.index t (2 : Fin 3) = 0
    ∧ win1_7.index t (2 : Fin 3) = 0 ∧ win1_7.index t (0 : Fin 3) ≤ 7 ∧ win1_7.index t (1 : Fin 3) ≤ 7 :=
  (by decide +kernel : ∀ t : Fin grid1.N, _)

/-! ## Each input window's block as entries of its array -/

/-- A token block at a point, read at `x`: the tokens' array at `k`, one coordinate equation per axis. -/
theorem tokens_read (c : Dev nD) (t : Fin cfg1.N) (x : S1x1024x512.Idx) (k : S8x8192x512.Idx)
    (h0 : (k 0).val = win1_0.index t (0 : Fin 3) * 1 + 1 * (x 0).val) (h1 : (k 1).val = win1_0.index t (1 : Fin 3) * 1024 + 1 * (x 1).val) (h2 : (k 2).val = win1_0.index t (2 : Fin 3) * 512 + 1 * (x 2).val) :
    iblk1 V c 0 t x = V c main_arg0 k := by
  unfold iblk1
  rw [View.read_apply]
  show V c main_arg0 _ = V c main_arg0 k
  refine congrArg (V c main_arg0) (funext fun a => Fin.ext ?_)
  match a with
  | ⟨0, _⟩ => exact h0.symm
  | ⟨1, _⟩ => exact h1.symm
  | ⟨2, _⟩ => exact h2.symm

/-- The projection matrix's block at a point is the whole matrix. -/
theorem matrix_read (c : Dev nD) (t : Fin cfg1.N) (x : S512x512.Idx) (k : S512x512.Idx)
    (h0 : (k 0).val = win1_1.index t (0 : Fin 2) * 512 + 1 * (x 0).val) (h1 : (k 1).val = win1_1.index t (1 : Fin 2) * 512 + 1 * (x 1).val) :
    iblk1 V c 1 t x = V c main_arg5 k := by
  unfold iblk1
  rw [View.read_apply]
  show V c main_arg5 _ = V c main_arg5 k
  refine congrArg (V c main_arg5) (funext fun a => Fin.ext ?_)
  match a with
  | ⟨0, _⟩ => exact h0.symm
  | ⟨1, _⟩ => exact h1.symm

/-- The bias row's block at a point is the whole row. -/
theorem bias_read (c : Dev nD) (t : Fin cfg1.N) (x : S1x512.Idx) (k : S1x512.Idx)
    (h0 : (k 0).val = win1_2.index t (0 : Fin 2) * 1 + 1 * (x 0).val) (h1 : (k 1).val = win1_2.index t (1 : Fin 2) * 512 + 1 * (x 1).val) :
    iblk1 V c 2 t x = V c main_v0 k := by
  unfold iblk1
  rw [View.read_apply]
  show V c main_v0 _ = V c main_v0 k
  refine congrArg (V c main_v0) (funext fun a => Fin.ext ?_)
  match a with
  | ⟨0, _⟩ => exact h0.symm
  | ⟨1, _⟩ => exact h1.symm

/-- The projected keys' block at a point: one batch of the keys' array. -/
theorem keys_read (c : Dev nD) (t : Fin cfg1.N) (x : S1x20x512.Idx) (k : S8x20x512.Idx)
    (h0 : (k 0).val = win1_3.index t (0 : Fin 3) * 1 + 1 * (x 0).val) (h1 : (k 1).val = win1_3.index t (1 : Fin 3) * 20 + 1 * (x 1).val) (h2 : (k 2).val = win1_3.index t (2 : Fin 3) * 512 + 1 * (x 2).val) :
    iblk1 V c 3 t x = V c main_v3_0 k := by
  unfold iblk1
  rw [View.read_apply]
  show V c main_v3_0 _ = V c main_v3_0 k
  refine congrArg (V c main_v3_0) (funext fun a => Fin.ext ?_)
  match a with
  | ⟨0, _⟩ => exact h0.symm
  | ⟨1, _⟩ => exact h1.symm
  | ⟨2, _⟩ => exact h2.symm

/-- The projected values' block at a point: one batch of the values' array. -/
theorem values_read (c : Dev nD) (t : Fin cfg1.N) (x : S1x20x512.Idx) (k : S8x20x512.Idx)
    (h0 : (k 0).val = win1_4.index t (0 : Fin 3) * 1 + 1 * (x 0).val) (h1 : (k 1).val = win1_4.index t (1 : Fin 3) * 20 + 1 * (x 1).val) (h2 : (k 2).val = win1_4.index t (2 : Fin 3) * 512 + 1 * (x 2).val) :
    iblk1 V c 4 t x = V c main_v3_1 k := by
  unfold iblk1
  rw [View.read_apply]
  show V c main_v3_1 _ = V c main_v3_1 k
  refine congrArg (V c main_v3_1) (funext fun a => Fin.ext ?_)
  match a with
  | ⟨0, _⟩ => exact h0.symm
  | ⟨1, _⟩ => exact h1.symm
  | ⟨2, _⟩ => exact h2.symm

/-- The mask's block at a point: one batch's mask row. -/
theorem mask_read (c : Dev nD) (t : Fin cfg1.N) (x : S1x1x20.Idx) (k : S8x1x20.Idx)
    (h0 : (k 0).val = win1_5.index t (0 : Fin 3) * 1 + 1 * (x 0).val) (h1 : (k 1).val = win1_5.index t (1 : Fin 3) * 1 + 1 * (x 1).val) (h2 : (k 2).val = win1_5.index t (2 : Fin 3) * 20 + 1 * (x 2).val) :
    iblk1 V c 5 t x = V c main_arg3 k := by
  unfold iblk1
  rw [View.read_apply]
  show V c main_arg3 _ = V c main_arg3 k
  refine congrArg (V c main_arg3) (funext fun a => Fin.ext ?_)
  match a with
  | ⟨0, _⟩ => exact h0.symm
  | ⟨1, _⟩ => exact h1.symm
  | ⟨2, _⟩ => exact h2.symm

/-- The transposed coarse prediction's block at a point: 1024 token rows of one batch. -/
theorem coarse_read (c : Dev nD) (t : Fin cfg1.N) (x : S1x1024x20.Idx) (k : S8x8192x20.Idx)
    (h0 : (k 0).val = win1_6.index t (0 : Fin 3) * 1 + 1 * (x 0).val) (h1 : (k 1).val = win1_6.index t (1 : Fin 3) * 1024 + 1 * (x 1).val) (h2 : (k 2).val = win1_6.index t (2 : Fin 3) * 20 + 1 * (x 2).val) :
    iblk1 V c 6 t x = V c main_v4 k := by
  unfold iblk1
  rw [View.read_apply]
  show V c main_v4 _ = V c main_v4 k
  refine congrArg (V c main_v4) (funext fun a => Fin.ext ?_)
  match a with
  | ⟨0, _⟩ => exact h0.symm
  | ⟨1, _⟩ => exact h1.symm
  | ⟨2, _⟩ => exact h2.symm

/-! ## What a point writes back -/

/-- WHAT A POINT WRITES BACK to the result array is its block of `attnArr` of the arrays the region finds. -/
theorem flushed_out (c : Dev nD) (t : Fin cfg1.N) :
    (dat1 V c).flushed 7 t = ((cfg1.win 7).blk t).view.read (Elt Ideal)
      (attnArr (V c main_arg0) (V c main_arg5) (V c main_v0) (V c main_v3_0) (V c main_v3_1) (V c main_arg3) (V c main_v4)) := by
  show (cfg1.win 7).cut (grid1.coords t) ((dat1 V c).after 7 t) = _
  rw [after1_7]
  unfold out1_7
  rw [View.canon_unit_zero hz3]
  simp only [View.ld_unit_zero (S := S1x1024x512) hz3, View.ld_unit_zero (S := S512x512) hz2, View.ld_unit_zero (S := S1x512) hz2,
    View.ld_unit_zero (S := S1x20x512) hz3, View.ld_unit_zero (S := S1x1x20) hz3, View.ld_unit_zero (S := S1x1024x20) hz3]
  funext y
  obtain ⟨u, r, e, rfl⟩ : ∃ (u : Fin 1) (r : Fin 1024) (e : Fin 512), (y : S1x1024x512.Idx) = ix3 u r e := ⟨y 0, y 1, y 2, eq_ix3 y⟩
  obtain rfl : u = 0 := Subsingleton.elim _ _
  show k1_pay1 (F := Ideal) (k1_pay2 (iblk1 V c 5 t)) (k1_pay3 (iblk1 V c 0 t) (iblk1 V c 1 t) (iblk1 V c 2 t) (iblk1 V c 3 t) (iblk1 V c 5 t))
        (k1_pay4 (iblk1 V c 6 t)) (iblk1 V c 4 t) (ix3 (0 : Fin 1) r e)
      = attnArr (V c main_arg0) (V c main_arg5) (V c main_v0) (V c main_v3_0) (V c main_v3_1) (V c main_arg3) (V c main_v4)
          (((cfg1.win 7).blk t).view.emb (ix3 (0 : Fin 1) r e))
  refine (AttentionRow.stored_rowOut _ _ _ _ _ _ _ r e).trans ?_
  obtain ⟨a0, a1, a2, b0, b1, c0, c1, d0, d1, d2, e0, e1, e2, g0, g1, g2, h0, h1, h2, o2, o0, o1⟩ := idx_facts1 t
  unfold attnArr
  refine rowOut_congr
    (funext fun d => tokens_read V c t _ _ ?_ ?_ ?_)
    (funext fun d => funext fun e' => matrix_read V c t _ _ ?_ ?_)
    (funext fun e' => bias_read V c t _ _ ?_ ?_)
    (funext fun c' => funext fun e' => keys_read V c t _ _ ?_ ?_ ?_)
    (funext fun c' => mask_read V c t _ _ ?_ ?_ ?_)
    (funext fun c' => coarse_read V c t _ _ ?_ ?_ ?_)
    (funext fun c' => values_read V c t _ _ ?_ ?_ ?_)
  · show win1_7.index t (0 : Fin 3) * 1 + 1 * 0 = win1_0.index t (0 : Fin 3) * 1 + 1 * 0; omega
  · show win1_7.index t (1 : Fin 3) * 1024 + 1 * r.val = win1_0.index t (1 : Fin 3) * 1024 + 1 * r.val; omega
  · show d.val = win1_0.index t (2 : Fin 3) * 512 + 1 * d.val; omega
  · show d.val = win1_1.index t (0 : Fin 2) * 512 + 1 * d.val; omega
  · show e'.val = win1_1.index t (1 : Fin 2) * 512 + 1 * e'.val; omega
  · show 0 = win1_2.index t (0 : Fin 2) * 1 + 1 * 0; omega
  · show e'.val = win1_2.index t (1 : Fin 2) * 512 + 1 * e'.val; omega
  · show win1_7.index t (0 : Fin 3) * 1 + 1 * 0 = win1_3.index t (0 : Fin 3) * 1 + 1 * 0; omega
  · show c'.val = win1_3.index t (1 : Fin 3) * 20 + 1 * c'.val; omega
  · show e'.val = win1_3.index t (2 : Fin 3) * 512 + 1 * e'.val; omega
  · show win1_7.index t (0 : Fin 3) * 1 + 1 * 0 = win1_5.index t (0 : Fin 3) * 1 + 1 * 0; omega
  · show 0 = win1_5.index t (1 : Fin 3) * 1 + 1 * 0; omega
  · show c'.val = win1_5.index t (2 : Fin 3) * 20 + 1 * c'.val; omega
  · show win1_7.index t (0 : Fin 3) * 1 + 1 * 0 = win1_6.index t (0 : Fin 3) * 1 + 1 * 0; omega
  · show win1_7.index t (1 : Fin 3) * 1024 + 1 * r.val = win1_6.index t (1 : Fin 3) * 1024 + 1 * r.val; omega
  · show c'.val = win1_6.index t (2 : Fin 3) * 20 + 1 * c'.val; omega
  · show win1_7.index t (0 : Fin 3) * 1 + 1 * 0 = win1_4.index t (0 : Fin 3) * 1 + 1 * 0; omega
  · show c'.val = win1_4.index t (1 : Fin 3) * 20 + 1 * c'.val; omega
  · show win1_7.index t (2 : Fin 3) * 512 + 1 * e.val = win1_4.index t (2 : Fin 3) * 512 + 1 * e.val; omega

/-! ## The blocks tile the result array: 8 batches by 8 blocks of 1024 tokens -/

theorem idx_onto1 : ∀ (q0 q1 : Fin 8), ∃ t : Fin cfg1.N, win1_7.index t = ![q0.val, q1.val, 0] :=
  (by decide +kernel : ∀ (q0 q1 : Fin 8), ∃ t : Fin grid1.N, win1_7.index t = ![q0.val, q1.val, 0])

theorem mem_out_blk (t : Fin cfg1.N) (i : S8x8192x512.Idx) :
    i ∈ ((cfg1.win 7).blk t).view.set ↔ ∀ a : Fin 3, win1_7.index t a * S1x1024x512.size a ≤ (i a).val ∧ (i a).val < win1_7.index t a * S1x1024x512.size a + S1x1024x512.size a := by
  show i ∈ ((View.whole main_v5).slice (win1_7.rect t)).set ↔ _
  rw [View.set_slice_whole, Rect.mem_set_unit]
  exact Iff.rfl

theorem out_cover (i : S8x8192x512.Idx) : ∃ t : Fin cfg1.N, (cfg1.win 7).flush t = true ∧ i ∈ ((cfg1.win 7).blk t).view.set := by
  have hi0 : (i 0).val < 8 := (i 0).isLt
  have hi1 : (i 1).val < 8192 := (i 1).isLt
  have hi2 : (i 2).val < 512 := (i 2).isLt
  obtain ⟨t, ht⟩ := idx_onto1 ⟨(i 0).val, hi0⟩ ⟨(i 1).val / 1024, by omega⟩
  have q0 : win1_7.index t (0 : Fin 3) = (i 0).val := congrFun ht 0
  have q1 : win1_7.index t (1 : Fin 3) = (i 1).val / 1024 := congrFun ht 1
  have q2 : win1_7.index t (2 : Fin 3) = 0 := congrFun ht 2
  refine ⟨t, flush1_7 t, ?_⟩
  rw [mem_out_blk]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 1024 ≤ (i 1).val ∧ (i 1).val < win1_7.index t (1 : Fin 3) * 1024 + 1024; omega
  | ⟨2, _⟩ => show win1_7.index t (2 : Fin 3) * 512 ≤ (i 2).val ∧ (i 2).val < win1_7.index t (2 : Fin 3) * 512 + 512; omega

/-- THE RESULT ARRAY after the attention region: `attnArr` of the arrays the region found at entry, whole. -/
theorem result_array (c : Dev nD) :
    (dat1 V c).arrAt 7 cfg1.N
      = attnArr (V c main_arg0) (V c main_arg5) (V c main_v0) (V c main_v3_0) (V c main_v3_1) (V c main_arg3) (V c main_v4) :=
  (dat1 V c).arrAt_eq_of_cover 7 _ (fun t _ => flushed_out V c t) out_cover

end Cert.KernelIdeal.AttentionRegion

end
-- ==== Proof.HostReads.lean ====
/-
  What each of the kernel program's two pipelined regions finds in its arrays when it is entered, in terms of the
  launch memory.

  The program is: three reshapes (the three biases, each [512] → [1, 512], into `main_v0`, `main_v1`, `main_v2`);
  region 0, which writes `main_v3_0` and `main_v3_1`; one transpose (the coarse prediction [8, 20, 8192] →
  [8, 8192, 20], into `main_v4`); region 1. The buffer contents at each boundary are a fold from the launch memory:
  a stretch of host operations rewrites the buffers its operations write and leaves the rest, a region leaves its
  arrays at what its write-backs leave and every other buffer as entered.

  So a buffer is read back through the fold by asking, stretch by stretch, whether anything wrote it:
    • an argument array is written by nothing, and holds the launch contents at both entries;
    • a bias cast is written by one reshape of the first stretch and by nothing after it: at (0, e) it is the
      bias at e;
    • region 0's two outputs are not written by the transpose: region 1 finds what region 0's write-backs left;
    • `main_v4` is written by the transpose alone, whose operand is still the launch contents: at (b, n, c) it is
      the coarse prediction at (b, c, n).
-/
import proofs.«111245_j30666066494067_1_alg».proof.Proof.Gen.KernelIdeal.Frame
import Idealize.ShloMosaic.Lib.ValueLayout
import Idealize.ShloMosaic.Lib.ValueIdx
import Idealize.ShloMosaic.Lib.StableHlo.Run

noncomputable section

namespace Cert.KernelIdeal.HostReads

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ) (ρ : Dev nD → PrngReg)

/-! ## What the two stretches of host operations leave alone -/

/-- The first stretch is three reshapes, into `main_v0`, `main_v1` and `main_v2`: any other buffer holds after it
    what it held at launch. -/
theorem stretch0_keeps (c : Dev nD) (b : Ref sig .tc) (h0 : b ≠ main_v0) (h1 : b ≠ main_v1) (h2 : b ≠ main_v2) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact ⟨StableHlo.devRef_ne_of_ne h0, StableHlo.devRef_ne_of_ne h1, StableHlo.devRef_ne_of_ne h2⟩))

/-- The second stretch is one transpose, into `main_v4`: any other buffer holds after it what region 0 left. -/
theorem stretch1_keeps (c : Dev nD) (b : Ref sig .tc) (h : b ≠ main_v4) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.unary_writes, Finset.mem_singleton]
    exact StableHlo.devRef_ne_of_ne h))

/-! ## Region 0's entry -/

theorem entry0_arg1 (c : Dev nD) : V1 m ρ c main_arg1 = m ((c : Thread nD τ).loc main_arg1) :=
  stretch0_keeps m ρ c main_arg1 (by decide) (by decide) (by decide)
theorem entry0_arg7 (c : Dev nD) : V1 m ρ c main_arg7 = m ((c : Thread nD τ).loc main_arg7) :=
  stretch0_keeps m ρ c main_arg7 (by decide) (by decide) (by decide)
theorem entry0_arg2 (c : Dev nD) : V1 m ρ c main_arg2 = m ((c : Thread nD τ).loc main_arg2) :=
  stretch0_keeps m ρ c main_arg2 (by decide) (by decide) (by decide)
theorem entry0_arg9 (c : Dev nD) : V1 m ρ c main_arg9 = m ((c : Thread nD τ).loc main_arg9) :=
  stretch0_keeps m ρ c main_arg9 (by decide) (by decide) (by decide)

/-- After the first stretch `main_v1` is the keys' bias cast from [512] to [1, 512]. -/
theorem v1_eq (c : Dev nD) :
    (V1 m ρ c main_v1 : S1x512.Idx → EReal)
      = shapeCast S1x512 (m ((c : Thread nD τ).loc main_arg8) : S512.Idx → EReal) shapeCasts_S512_S1x512 := by
  show StableHlo.after hostOps0 (W0 m ρ c) (Proc.devRef .tc main_v1) = _
  after_results
  rfl

theorem entry0_bias_keys (c : Dev nD) (e : Fin 512) :
    (V1 m ρ c main_v1 : S1x512.Idx → EReal) (ix2 (0 : Fin 1) e)
      = (m ((c : Thread nD τ).loc main_arg8) : S512.Idx → EReal) (ix1 e) := by
  rw [v1_eq]
  exact shapeCast_a_1a_apply _ _ (0 : Fin 1) e

/-- After the first stretch `main_v2` is the values' bias cast from [512] to [1, 512]. -/
theorem v2_eq (c : Dev nD) :
    (V1 m ρ c main_v2 : S1x512.Idx → EReal)
      = shapeCast S1x512 (m ((c : Thread nD τ).loc main_arg10) : S512.Idx → EReal) shapeCasts_S512_S1x512 := by
  show StableHlo.after hostOps0 (W0 m ρ c) (Proc.devRef .tc main_v2) = _
  after_results
  rfl

theorem entry0_bias_values (c : Dev nD) (e : Fin 512) :
    (V1 m ρ c main_v2 : S1x512.Idx → EReal) (ix2 (0 : Fin 1) e)
      = (m ((c : Thread nD τ).loc main_arg10) : S512.Idx → EReal) (ix1 e) := by
  rw [v2_eq]
  exact shapeCast_a_1a_apply _ _ (0 : Fin 1) e

/-! ## Region 1's entry -/

/-- A buffer that is none of the three reshape results, no array of region 0 and not the transpose's result holds at
    region 1's entry what it held at launch. -/
theorem entry1_keeps (c : Dev nD) (b : Ref sig .tc) (h0 : b ≠ main_v0) (h1 : b ≠ main_v1) (h2 : b ≠ main_v2)
    (hw : ∀ w, Pipeline.arrRef spec0 w ≠ b) (h4 : b ≠ main_v4) :
    W3 m ρ c (Proc.devRef .tc b) = W0 m ρ c (Proc.devRef .tc b) :=
  (stretch1_keeps m ρ c b h4).trans ((W2_of_ne m ρ c b hw).trans (stretch0_keeps m ρ c b h0 h1 h2))

theorem entry1_arg0 (c : Dev nD) : V3 m ρ c main_arg0 = m ((c : Thread nD τ).loc main_arg0) :=
  entry1_keeps m ρ c main_arg0 (by decide) (by decide) (by decide) (by decide) (by decide)
theorem entry1_arg5 (c : Dev nD) : V3 m ρ c main_arg5 = m ((c : Thread nD τ).loc main_arg5) :=
  entry1_keeps m ρ c main_arg5 (by decide) (by decide) (by decide) (by decide) (by decide)
theorem entry1_arg3 (c : Dev nD) : V3 m ρ c main_arg3 = m ((c : Thread nD τ).loc main_arg3) :=
  entry1_keeps m ρ c main_arg3 (by decide) (by decide) (by decide) (by decide) (by decide)

/-- After the first stretch `main_v0` is the tokens' bias cast from [512] to [1, 512]. -/
theorem v0_eq (c : Dev nD) :
    (V1 m ρ c main_v0 : S1x512.Idx → EReal)
      = shapeCast S1x512 (m ((c : Thread nD τ).loc main_arg6) : S512.Idx → EReal) shapeCasts_S512_S1x512 := by
  show StableHlo.after hostOps0 (W0 m ρ c) (Proc.devRef .tc main_v0) = _
  after_results
  rfl

/-- Neither region 0 (it is none of its arrays) nor the transpose writes `main_v0`: region 1 finds it as the first
    stretch left it. -/
theorem entry1_bias_tokens (c : Dev nD) (e : Fin 512) :
    (V3 m ρ c main_v0 : S1x512.Idx → EReal) (ix2 (0 : Fin 1) e)
      = (m ((c : Thread nD τ).loc main_arg6) : S512.Idx → EReal) (ix1 e) := by
  have hV : V3 m ρ c main_v0 = V1 m ρ c main_v0 :=
    (stretch1_keeps m ρ c main_v0 (by decide)).trans (W2_of_ne m ρ c main_v0 (by decide))
  rw [hV, v0_eq]
  exact shapeCast_a_1a_apply _ _ (0 : Fin 1) e

/-- The transpose does not write region 0's first output: region 1 finds it as region 0's write-backs left it. -/
theorem entry1_keys (c : Dev nD) : V3 m ρ c main_v3_0 = (dat0 (V1 m ρ) c).arrAt 6 cfg0.N :=
  (stretch1_keeps m ρ c main_v3_0 (by decide)).trans (W2_arr m ρ c 6)

/-- Nor its second output. -/
theorem entry1_values (c : Dev nD) : V3 m ρ c main_v3_1 = (dat0 (V1 m ρ) c).arrAt 7 cfg0.N :=
  (stretch1_keeps m ρ c main_v3_1 (by decide)).trans (W2_arr m ρ c 7)

/-- At region 1's entry `main_v4` is the coarse prediction with its last two axes exchanged: the transpose reads
    `main_arg4`, which neither the reshapes nor region 0 wrote. -/
theorem v4_eq (c : Dev nD) :
    (V3 m ρ c main_v4 : S8x8192x20.Idx → EReal)
      = transpose S8x8192x20 [0, 2, 1] (m ((c : Thread nD τ).loc main_arg4) : S8x20x8192.Idx → EReal)
          transposes_S8x20x8192_S8x8192x20_0_2_1 := by
  have h4 : W2 m ρ c (Proc.devRef .tc main_arg4) = m ((c : Thread nD τ).loc main_arg4) :=
    (W2_of_ne m ρ c main_arg4 (by decide)).trans (stretch0_keeps m ρ c main_arg4 (by decide) (by decide) (by decide))
  show StableHlo.after hostOps1 (W2 m ρ c) (Proc.devRef .tc main_v4) = _
  after_results
  rw [h4]

theorem entry1_coarse (c : Dev nD) (b : Fin 8) (n : Fin 8192) (cc : Fin 20) :
    (V3 m ρ c main_v4 : S8x8192x20.Idx → EReal) (ix3 b n cc)
      = (m ((c : Thread nD τ).loc main_arg4) : S8x20x8192.Idx → EReal) (ix3 b cc n) := by
  rw [v4_eq]
  exact transpose_ix3_021_apply _ _ b n cc

end Cert.KernelIdeal.HostReads

end
-- ==== Proof.KernelValue.lean ====
/-
  The idealized kernel's result is the specification's output of the launch arrays.

  After the run the result buffer holds the attention region's result array, which is `rowOut` of each token's rows in the
  arrays that region finds at entry. Those arrays are, in terms of the launch memory: the tokens, the token-projection
  matrix and the mask untouched; the token bias as a 1 × 512 row; the coarse prediction with its last two axes exchanged;
  and the projection region's two result arrays, which are the affine maps of the class keys and class values (with the
  key and value biases as 1 × 512 rows). Row by row these are the rows the specification's output reads.
-/
import proofs.«111245_j30666066494067_1_alg».proof.Proof.KernelRun
import proofs.«111245_j30666066494067_1_alg».proof.Proof.ProjectionRegion
import proofs.«111245_j30666066494067_1_alg».proof.Proof.AttentionRegion
import proofs.«111245_j30666066494067_1_alg».proof.Proof.HostReads
import proofs.«111245_j30666066494067_1_alg».proof.Proof.RowAttention

noncomputable section

namespace Cert.KernelIdeal.Result

open Cert.KernelIdeal Cert.KernelIdeal.Gen Idealize.ShloMosaic Idealize.ShloMosaic.TcCoe Idealize.SL.Sem Idealize.ShloMosaic.ValueIdx
open Cert.ClassAttention

variable (m : (ℓ : Loc nD τ sig) → Buf (Elt Ideal) ℓ) (ρ : Dev nD → PrngReg)

/-- The projected class rows at an explicit entry (b, c, e). -/
theorem projArr_at (x : S8x20x512.Idx → EReal) (W : S512x512.Idx → EReal) (β2 : S1x512.Idx → EReal) (b : Fin 8) (cc : Fin 20) (e : Fin 512) :
    ProjectionRegion.projArr x W β2 (ix3 b cc e) = (∑ d : Fin 512, x (ix3 b cc d) * W (ix2 d e)) + β2 (ix2 (0 : Fin 1) e) := rfl

/-- The projected keys the attention region finds, at (b, c, e): the keys' affine map of the launch arrays. -/
theorem keys_entry (c : Dev nD) (b : Fin 8) (cc : Fin 20) (e : Fin 512) :
    (V3 m ρ c main_v3_0 : S8x20x512.Idx → EReal) (ix3 b cc e)
      = projCls (m ((c : Thread nD τ).loc main_arg1)) (m ((c : Thread nD τ).loc main_arg7)) (m ((c : Thread nD τ).loc main_arg8)) b cc e := by
  rw [HostReads.entry1_keys, ProjectionRegion.keys_array (V1 m ρ) c, projArr_at, HostReads.entry0_arg1, HostReads.entry0_arg7,
    HostReads.entry0_bias_keys]
  rfl

/-- The projected values the attention region finds, at (b, c, e): the values' affine map of the launch arrays. -/
theorem values_entry (c : Dev nD) (b : Fin 8) (cc : Fin 20) (e : Fin 512) :
    (V3 m ρ c main_v3_1 : S8x20x512.Idx → EReal) (ix3 b cc e)
      = projCls (m ((c : Thread nD τ).loc main_arg2)) (m ((c : Thread nD τ).loc main_arg9)) (m ((c : Thread nD τ).loc main_arg10)) b cc e := by
  rw [HostReads.entry1_values, ProjectionRegion.values_array (V1 m ρ) c, projArr_at, HostReads.entry0_arg2, HostReads.entry0_arg9,
    HostReads.entry0_bias_values]
  rfl

/-- THE RESULT ARRAY is the specification's output of the launch arrays. -/
theorem result_eq_out (c : Dev nD) :
    (dat1 (V3 m ρ) c).arrAt 7 cfg1.N = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [AttentionRegion.result_array (V3 m ρ) c]
  funext i
  obtain ⟨b, n, e, rfl⟩ : ∃ (b : Fin 8) (n : Fin 8192) (e : Fin 512), i = ix3 b n e := ⟨i 0, i 1, i 2, eq_ix3 i⟩
  show AttentionRegion.attnArr (V3 m ρ c main_arg0) (V3 m ρ c main_arg5) (V3 m ρ c main_v0) (V3 m ρ c main_v3_0) (V3 m ρ c main_v3_1)
        (V3 m ρ c main_arg3) (V3 m ρ c main_v4) (ix3 b n e)
      = outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) b n e
  rw [outAt_eq_rowOut]
  unfold AttentionRegion.attnArr
  refine rowOut_congr ?_ ?_ ?_ ?_ ?_ ?_ ?_
  · funext d; rw [HostReads.entry1_arg0]
  · funext d e'; rw [HostReads.entry1_arg5]
  · funext e'; exact HostReads.entry1_bias_tokens m ρ c e'
  · funext c' e'; exact keys_entry m ρ c b c' e'
  · funext c'; rw [HostReads.entry1_arg3]
  · funext c'; exact HostReads.entry1_coarse m ρ c b n c'
  · funext c'; exact values_entry m ρ c b c' e

/-- Every weakly fair execution of the idealized kernel terminates, nothing faulting, with the result buffer at the
    specification's output of the launch arrays and the eleven argument arrays as launched. -/
theorem run : θ_run defs (onTc (τ := τ) (main (F := Ideal))) ⟨m, fun _ => 0, ρ⟩ (fun r => ∀ c : Dev nD,
      r.2.mem ((c : Thread nD τ).loc main_v5) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun r h c => ⟨(h c).1.trans (result_eq_out m ρ c), (h c).2⟩) (ValueRun.run_result m ρ)

end Cert.KernelIdeal.Result

end
-- ==== Proof.ReferenceIsSpec.lean ====
/-
  The reference program computes the specification, index by index, on the extended reals.

  The reference is a straight line of host operations. Read at an index, each is the operation of the
  specification on the elements at that index:

    stages 0–11    the three affine maps of the feature axis: a contraction over the 512 features plus the bias,
                   which two broadcasts bring to every row — `projTok` for the tokens, `projCls` for the class keys
                   and the class values;
    stages 12–16   the contraction of projected token against projected class key, times the scale word, plus
                   the mask broadcast along the tokens — `logit`;
    stages 17–27   a softmax over the 20 classes: the maximum-reduce from −∞, joined once more with the −∞ splat,
                   brought back to every class by two broadcasts, subtracted; the exponential; its sum-reduce
                   from 0, brought back the same way; the quotient — `softmaxRow` of the row of logits, `attn1`;
    stages 28–39   the transpose of the coarse prediction and the same softmax over it — `coarse`;
    stages 40–42   the product of the two distributions plus the mask — `logit2`;
    stages 43–53   the same softmax a third time — `attn2`;
    stage 54       the contraction over the 20 classes against the projected class values — `outAt`.

  Nothing is computed and no law of arithmetic is used beyond `0 + s = s` (a host sum is its initial value, the
  zero word, plus the sum over the axis; the specification has the bare sum): the scale and −∞ stay the words
  both sides share. The one stage the generated reading does not cover is the maximum-reduce; it is read here as a
  fold of `max` over the class axis's coordinates (`hostRowMax`).

  Every lemma is stated at explicit coordinates (b, n, c, e) with indices built by `ix2` / `ix3`, so that each
  index function of the generated reading is identified with a constructor axis by axis.
-/
import proofs.«111245_j30666066494067_1_alg».proof.Proof.Gen.ReferenceIdeal.Read
import proofs.«111245_j30666066494067_1_alg».proof.Proof.AttentionSpec
import Idealize.ShloMosaic.Lib.ValueIdx
import Idealize.ShloMosaic.Lib.Pipeline.Value
import Idealize.ShloMosaic.PureOps.Ideal.Laws
import Idealize.ShloMosaic.PureOps.Reduce

noncomputable section

namespace Cert.ClassAttention.Reference

open Idealize.ShloMosaic Idealize.ShloMosaic.ValueIdx Cert.ReferenceIdeal Cert.ReferenceIdeal.Read Cert.ClassAttention
open Cert.ReferenceIdeal.Facts₀

section Stages

variable (x0 : (⟨S8x8192x512, .f32⟩ : BufTy).Contents (Elt Ideal)) (x1 x2 : (⟨S8x20x512, .f32⟩ : BufTy).Contents (Elt Ideal))
  (x3 : (⟨S8x1x20, .f32⟩ : BufTy).Contents (Elt Ideal)) (x4 : (⟨S8x20x8192, .f32⟩ : BufTy).Contents (Elt Ideal))
  (x5 : (⟨S512x512, .f32⟩ : BufTy).Contents (Elt Ideal)) (x6 : (⟨S512, .f32⟩ : BufTy).Contents (Elt Ideal))
  (x7 : (⟨S512x512, .f32⟩ : BufTy).Contents (Elt Ideal)) (x8 : (⟨S512, .f32⟩ : BufTy).Contents (Elt Ideal))
  (x9 : (⟨S512x512, .f32⟩ : BufTy).Contents (Elt Ideal)) (x10 : (⟨S512, .f32⟩ : BufTy).Contents (Elt Ideal))

/-! ## The three projections -/

/-- Stage 3 at (b, n, e): the tokens' affine map, Σ_d q[b, n, d] · Wq[d, e] + βq[e]. -/
theorem v3_at (b : Fin 8) (n : Fin 8192) (e : Fin 512) :
    val_main_v3 (F := Ideal) x0 x5 x6 (ix3 b n e) = projTok x0 x5 x6 b n e := by
  have hl : ∀ k : Fin 512, lidx_main_v0 (ix3 b n e) k = ix3 b n k := fun k =>
    funext fun a => Fin.ext (by match a with | ⟨0, _⟩ => rfl | ⟨1, _⟩ => rfl | ⟨2, _⟩ => rfl)
  have hr : ∀ k : Fin 512, ridx_main_v0 (ix3 b n e) k = ix2 k e := fun k =>
    funext fun a => Fin.ext (by match a with | ⟨0, _⟩ => rfl | ⟨1, _⟩ => rfl)
  have hb : idx_main_v1 (idx_main_v2 (ix3 b n e)) = ix1 e :=
    funext fun a => Fin.ext (by match a with | ⟨0, _⟩ => rfl)
  rw [val_main_v3_apply, val_main_v0_apply, val_main_v2_apply, val_main_v1_apply, hb]
  unfold projTok
  rw [Ideal.addf_def]
  exact congrArg (· + x6 (ix1 e)) (Finset.sum_congr rfl fun k _ => by rw [hl, hr])

/-- Stage 7 at (b, c, e): the class keys' affine map. -/
theorem v7_at (b : Fin 8) (c : Fin 20) (e : Fin 512) :
    val_main_v7 (F := Ideal) x1 x7 x8 (ix3 b c e) = projCls x1 x7 x8 b c e := by
  have hl : ∀ k : Fin 512, lidx_main_v4 (ix3 b c e) k = ix3 b c k := fun k =>
    funext fun a => Fin.ext (by match a with | ⟨0, _⟩ => rfl | ⟨1, _⟩ => rfl | ⟨2, _⟩ => rfl)
  have hr : ∀ k : Fin 512, ridx_main_v4 (ix3 b c e) k = ix2 k e := fun k =>
    funext fun a => Fin.ext (by match a with | ⟨0, _⟩ => rfl | ⟨1, _⟩ => rfl)
  have hb : idx_main_v5 (idx_main_v6 (ix3 b c e)) = ix1 e :=
    funext fun a => Fin.ext (by match a with | ⟨0, _⟩ => rfl)
  rw [val_main_v7_apply, val_main_v4_apply, val_main_v6_apply, val_main_v5_apply, hb]
  unfold projCls
  rw [Ideal.addf_def]
  exact congrArg (· + x8 (ix1 e)) (Finset.sum_congr rfl fun k _ => by rw [hl, hr])

/-- Stage 11 at (b, c, e): the class values' affine map. -/
theorem v11_at (b : Fin 8) (c : Fin 20) (e : Fin 512) :
    val_main_v11 (F := Ideal) x2 x9 x10 (ix3 b c e) = projCls x2 x9 x10 b c e := by
  have hl : ∀ k : Fin 512, lidx_main_v8 (ix3 b c e) k = ix3 b c k := fun k =>
    funext fun a => Fin.ext (by match a with | ⟨0, _⟩ => rfl | ⟨1, _⟩ => rfl | ⟨2, _⟩ => rfl)
  have hr : ∀ k : Fin 512, ridx_main_v8 (ix3 b c e) k = ix2 k e := fun k =>
    funext fun a => Fin.ext (by match a with | ⟨0, _⟩ => rfl | ⟨1, _⟩ => rfl)
  have hb : idx_main_v9 (idx_main_v10 (ix3 b c e)) = ix1 e :=
    funext fun a => Fin.ext (by match a with | ⟨0, _⟩ => rfl)
  rw [val_main_v11_apply, val_main_v8_apply, val_main_v10_apply, val_main_v9_apply, hb]
  unfold projCls
  rw [Ideal.addf_def]
  exact congrArg (· + x10 (ix1 e)) (Finset.sum_congr rfl fun k _ => by rw [hl, hr])

/-! ## The first logit -/

/-- Stage 16 at (b, n, c): the contraction of the two projections over the features, scaled, plus the mask. -/
theorem v16_at (b : Fin 8) (n : Fin 8192) (c : Fin 20) :
    val_main_v16 (F := Ideal) x0 x1 x3 x5 x6 x7 x8 (ix3 b n c) = logit x0 x1 x3 x5 x6 x7 x8 b n c := by
  have hl : ∀ k : Fin 512, lidx_main_v12 (ix3 b n c) k = ix3 b n k := fun k =>
    funext fun a => Fin.ext (by match a with | ⟨0, _⟩ => rfl | ⟨1, _⟩ => rfl | ⟨2, _⟩ => rfl)
  have hr : ∀ k : Fin 512, ridx_main_v12 (ix3 b n c) k = ix3 b c k := fun k =>
    funext fun a => Fin.ext (by match a with | ⟨0, _⟩ => rfl | ⟨1, _⟩ => rfl | ⟨2, _⟩ => rfl)
  have hm : idx_main_v15 (ix3 b n c) = ix3 b (0 : Fin 1) c :=
    funext fun a => Fin.ext (by match a with | ⟨0, _⟩ => rfl | ⟨1, _⟩ => rfl | ⟨2, _⟩ => rfl)
  rw [val_main_v16_apply, val_main_v14_apply, val_main_v12_apply, val_main_v13_apply, val_main_cst_apply,
    val_main_v15_apply, hm]
  unfold logit
  rw [Ideal.addf_def, Ideal.mulf_def, Ideal.ofBits_def]
  exact congrArg (fun s => s * scale + x3 (ix3 b (0 : Fin 1) c))
    (Finset.sum_congr rfl fun k _ => by rw [hl, hr, v3_at, v7_at])

/-! ## A row maximum of the host: the max-reduce over the class axis -/

/-- Dropping the class axis of an 8 × 8192 × 20 array leaves an 8 × 8192 one. -/
theorem reducesClasses : S8x8192x20.Reduces [2] S8x8192 := by decide

/-- The reduced index (b, n) with class `k` put back is (b, n, k). -/
theorem lift_ix (h : S8x8192x20.Reduces [2] S8x8192) (b : Fin 8) (n : Fin 8192) (k : Fin (S8x8192x20.size 2)) :
    h.lift (ix2 b n) k = ix3 b n (⟨k.val, k.isLt⟩ : Fin 20) := by
  funext c; apply Fin.ext
  match c with | ⟨0, _⟩ => rfl | ⟨1, _⟩ => rfl | ⟨2, _⟩ => rfl

/-- The host's reduce with a maximum body over the class axis, at token (b, n), as a fold over that axis's
    coordinates: the library's reading of a one-axis reduce, at these shapes. -/
theorem hostRowMax_fold (X : S8x8192x20.Idx → EReal) (b : Fin 8) (n : Fin 8192) :
    Host.reduce (FloatOps.maximumf (F := Ideal) (φ := .f32)) X (constant (F := Ideal) S_ .f32 0xFF800000#32)
        reducesTo_S8x8192x20_S8x8192_d2 h_S_ (ix2 b n)
      = (Finset.univ : Finset (Fin (S8x8192x20.size 2))).fold (FloatOps.maximumf (F := Ideal) (φ := .f32))
          ((constant (F := Ideal) S_ .f32 0xFF800000#32) (Shape.Idx.first h_S_)) (X ∘ reducesClasses.lift (ix2 b n)) :=
  Host.reduce_eq_fold_single (s := S8x8192x20) (t := S8x8192) (a := 2) (u := S_) (α := EReal)
    (FloatOps.maximumf (F := Ideal) (φ := .f32)) X (constant (F := Ideal) S_ .f32 0xFF800000#32)
    reducesTo_S8x8192x20_S8x8192_d2 reducesClasses h_S_ (ix2 b n)

/-- From −∞ the host's reduce with a maximum body over the 20 classes, at token (b, n), is the fold of `max` from −∞
    over the row. -/
theorem hostRowMax (X : S8x8192x20.Idx → EReal) (b : Fin 8) (n : Fin 8192) :
    Host.reduce (FloatOps.maximumf (F := Ideal) (φ := .f32)) X (constant (F := Ideal) S_ .f32 0xFF800000#32)
        reducesTo_S8x8192x20_S8x8192_d2 h_S_ (ix2 b n)
      = (Finset.univ : Finset (Fin 20)).fold max negInf (fun c => X (ix3 b n c)) := by
  refine (hostRowMax_fold X b n).trans ?_
  have hf : (X ∘ reducesClasses.lift (ix2 b n)) = fun k : Fin 20 => X (ix3 b n k) :=
    funext fun k => congrArg X (lift_ix reducesClasses b n k)
  exact congrArg (fun f => Finset.fold max negInf f (Finset.univ : Finset (Fin 20))) hf
/-! ## The first softmax: stages 17 to 27 over the logits -/

/-- Stage 19 at (b, n): the maximum of the row of logits, folded from −∞ and joined with −∞. -/
theorem v19_at (b : Fin 8) (n : Fin 8192) :
    val_main_v19 (F := Ideal) x0 x1 x3 x5 x6 x7 x8 (ix2 b n)
      = rowMax (fun c => val_main_v16 (F := Ideal) x0 x1 x3 x5 x6 x7 x8 (ix3 b n c)) := by
  rw [val_main_v19_apply, val_main_v18_apply, val_main_cst_1_apply]
  unfold val_main_v17 val_main_cst_0 rowMax
  exact congrArg (max negInf) (hostRowMax (val_main_v16 (F := Ideal) x0 x1 x3 x5 x6 x7 x8) b n)

/-- Stage 23 at (b, n, c): the exponential of the logit less its row's maximum. -/
theorem v23_at (b : Fin 8) (n : Fin 8192) (c : Fin 20) :
    val_main_v23 (F := Ideal) x0 x1 x3 x5 x6 x7 x8 (ix3 b n c)
      = Ideal.exp (val_main_v16 (F := Ideal) x0 x1 x3 x5 x6 x7 x8 (ix3 b n c)
          - rowMax (fun c' => val_main_v16 (F := Ideal) x0 x1 x3 x5 x6 x7 x8 (ix3 b n c'))) := by
  have hi : idx_main_v20 (idx_main_v21 (ix3 b n c)) = ix2 b n :=
    funext fun a => Fin.ext (by match a with | ⟨0, _⟩ => rfl | ⟨1, _⟩ => rfl)
  rw [val_main_v23_apply, val_main_v22_apply, val_main_v21_apply, val_main_v20_apply, hi, v19_at,
    Ideal.hostUnary_exp_def, Ideal.subf_def]

/-- Stage 27 at (b, n, c): the shifted exponential over the row's sum of them — the softmax of the row of stage 16. -/
theorem v27_at (b : Fin 8) (n : Fin 8192) (c : Fin 20) :
    val_main_v27 (F := Ideal) x0 x1 x3 x5 x6 x7 x8 (ix3 b n c)
      = softmaxRow (fun c' => val_main_v16 (F := Ideal) x0 x1 x3 x5 x6 x7 x8 (ix3 b n c')) c := by
  have hi : idx_main_v25 (idx_main_v26 (ix3 b n c)) = ix2 b n :=
    funext fun a => Fin.ext (by match a with | ⟨0, _⟩ => rfl | ⟨1, _⟩ => rfl)
  have hk : ∀ k : Fin 20, idx_main_v24 (ix2 b n) k = ix3 b n k := fun k =>
    funext fun a => Fin.ext (by match a with | ⟨0, _⟩ => rfl | ⟨1, _⟩ => rfl | ⟨2, _⟩ => rfl)
  rw [val_main_v27_apply, val_main_v26_apply, val_main_v25_apply, hi, val_main_v24_apply, val_main_cst_2_apply,
    Ideal.hostDivf_def, Ideal.ofBits_def, Ideal.ofBits_zero_f32, zero_add, v23_at]
  unfold softmaxRow
  exact congrArg (Ideal.div _) (Finset.sum_congr rfl fun k _ => by rw [hk, v23_at])

/-- Stage 27 is the first attention row. -/
theorem attn1_at (b : Fin 8) (n : Fin 8192) (c : Fin 20) :
    val_main_v27 (F := Ideal) x0 x1 x3 x5 x6 x7 x8 (ix3 b n c) = attn1 x0 x1 x3 x5 x6 x7 x8 b n c := by
  rw [v27_at]
  unfold attn1
  exact congrArg (fun f => softmaxRow f c) (funext fun c' => v16_at x0 x1 x3 x5 x6 x7 x8 b n c')

/-! ## The coarse prediction: the transpose, then stages 29 to 39 -/

/-- Stage 28 at (b, n, c): the transposed coarse prediction, cp[b, c, n]. -/
theorem v28_at (b : Fin 8) (n : Fin 8192) (c : Fin 20) :
    val_main_v28 (F := Ideal) x4 (ix3 b n c) = x4 (ix3 b c n) := by
  rw [val_main_v28_apply]
  exact congrArg x4 (funext fun a => Fin.ext (by match a with | ⟨0, _⟩ => rfl | ⟨1, _⟩ => rfl | ⟨2, _⟩ => rfl))

/-- Stage 31 at (b, n): the maximum of the row of stage 28. -/
theorem v31_at (b : Fin 8) (n : Fin 8192) :
    val_main_v31 (F := Ideal) x4 (ix2 b n) = rowMax (fun c => val_main_v28 (F := Ideal) x4 (ix3 b n c)) := by
  rw [val_main_v31_apply, val_main_v30_apply, val_main_cst_4_apply]
  unfold val_main_v29 val_main_cst_3 rowMax
  exact congrArg (max negInf) (hostRowMax (val_main_v28 (F := Ideal) x4) b n)

/-- Stage 35 at (b, n, c): the exponential of the entry less its row's maximum. -/
theorem v35_at (b : Fin 8) (n : Fin 8192) (c : Fin 20) :
    val_main_v35 (F := Ideal) x4 (ix3 b n c)
      = Ideal.exp (val_main_v28 (F := Ideal) x4 (ix3 b n c)
          - rowMax (fun c' => val_main_v28 (F := Ideal) x4 (ix3 b n c'))) := by
  have hi : idx_main_v32 (idx_main_v33 (ix3 b n c)) = ix2 b n :=
    funext fun a => Fin.ext (by match a with | ⟨0, _⟩ => rfl | ⟨1, _⟩ => rfl)
  rw [val_main_v35_apply, val_main_v34_apply, val_main_v33_apply, val_main_v32_apply, hi, v31_at,
    Ideal.hostUnary_exp_def, Ideal.subf_def]

/-- Stage 39 at (b, n, c): the softmax of the row of stage 28. -/
theorem v39_at (b : Fin 8) (n : Fin 8192) (c : Fin 20) :
    val_main_v39 (F := Ideal) x4 (ix3 b n c)
      = softmaxRow (fun c' => val_main_v28 (F := Ideal) x4 (ix3 b n c')) c := by
  have hi : idx_main_v37 (idx_main_v38 (ix3 b n c)) = ix2 b n :=
    funext fun a => Fin.ext (by match a with | ⟨0, _⟩ => rfl | ⟨1, _⟩ => rfl)
  have hk : ∀ k : Fin 20, idx_main_v36 (ix2 b n) k = ix3 b n k := fun k =>
    funext fun a => Fin.ext (by match a with | ⟨0, _⟩ => rfl | ⟨1, _⟩ => rfl | ⟨2, _⟩ => rfl)
  rw [val_main_v39_apply, val_main_v38_apply, val_main_v37_apply, hi, val_main_v36_apply, val_main_cst_5_apply,
    Ideal.hostDivf_def, Ideal.ofBits_def, Ideal.ofBits_zero_f32, zero_add, v35_at]
  unfold softmaxRow
  exact congrArg (Ideal.div _) (Finset.sum_congr rfl fun k _ => by rw [hk, v35_at])

/-- Stage 39 is the normalised coarse prediction. -/
theorem coarse_at (b : Fin 8) (n : Fin 8192) (c : Fin 20) :
    val_main_v39 (F := Ideal) x4 (ix3 b n c) = coarse x4 b n c := by
  rw [v39_at]
  unfold coarse
  exact congrArg (fun f => softmaxRow f c) (funext fun c' => v28_at x4 b n c')

/-! ## The second logit and the second softmax: stages 40 to 53 -/

/-- Stage 42 at (b, n, c): the two class distributions multiplied, plus the mask. -/
theorem v42_at (b : Fin 8) (n : Fin 8192) (c : Fin 20) :
    val_main_v42 (F := Ideal) x0 x1 x3 x4 x5 x6 x7 x8 (ix3 b n c) = logit2 x0 x1 x3 x4 x5 x6 x7 x8 b n c := by
  have hm : idx_main_v41 (ix3 b n c) = ix3 b (0 : Fin 1) c :=
    funext fun a => Fin.ext (by match a with | ⟨0, _⟩ => rfl | ⟨1, _⟩ => rfl | ⟨2, _⟩ => rfl)
  rw [val_main_v42_apply, val_main_v40_apply, val_main_v41_apply, hm, attn1_at, coarse_at,
    Ideal.addf_def, Ideal.mulf_def]
  rfl

/-- Stage 45 at (b, n): the maximum of the row of second logits. -/
theorem v45_at (b : Fin 8) (n : Fin 8192) :
    val_main_v45 (F := Ideal) x0 x1 x3 x4 x5 x6 x7 x8 (ix2 b n)
      = rowMax (fun c => val_main_v42 (F := Ideal) x0 x1 x3 x4 x5 x6 x7 x8 (ix3 b n c)) := by
  rw [val_main_v45_apply, val_main_v44_apply, val_main_cst_7_apply]
  unfold val_main_v43 val_main_cst_6 rowMax
  exact congrArg (max negInf) (hostRowMax (val_main_v42 (F := Ideal) x0 x1 x3 x4 x5 x6 x7 x8) b n)

/-- Stage 49 at (b, n, c): the exponential of the second logit less its row's maximum. -/
theorem v49_at (b : Fin 8) (n : Fin 8192) (c : Fin 20) :
    val_main_v49 (F := Ideal) x0 x1 x3 x4 x5 x6 x7 x8 (ix3 b n c)
      = Ideal.exp (val_main_v42 (F := Ideal) x0 x1 x3 x4 x5 x6 x7 x8 (ix3 b n c)
          - rowMax (fun c' => val_main_v42 (F := Ideal) x0 x1 x3 x4 x5 x6 x7 x8 (ix3 b n c'))) := by
  have hi : idx_main_v46 (idx_main_v47 (ix3 b n c)) = ix2 b n :=
    funext fun a => Fin.ext (by match a with | ⟨0, _⟩ => rfl | ⟨1, _⟩ => rfl)
  rw [val_main_v49_apply, val_main_v48_apply, val_main_v47_apply, val_main_v46_apply, hi, v45_at,
    Ideal.hostUnary_exp_def, Ideal.subf_def]

/-- Stage 53 at (b, n, c): the softmax of the row of stage 42. -/
theorem v53_at (b : Fin 8) (n : Fin 8192) (c : Fin 20) :
    val_main_v53 (F := Ideal) x0 x1 x3 x4 x5 x6 x7 x8 (ix3 b n c)
      = softmaxRow (fun c' => val_main_v42 (F := Ideal) x0 x1 x3 x4 x5 x6 x7 x8 (ix3 b n c')) c := by
  have hi : idx_main_v51 (idx_main_v52 (ix3 b n c)) = ix2 b n :=
    funext fun a => Fin.ext (by match a with | ⟨0, _⟩ => rfl | ⟨1, _⟩ => rfl)
  have hk : ∀ k : Fin 20, idx_main_v50 (ix2 b n) k = ix3 b n k := fun k =>
    funext fun a => Fin.ext (by match a with | ⟨0, _⟩ => rfl | ⟨1, _⟩ => rfl | ⟨2, _⟩ => rfl)
  rw [val_main_v53_apply, val_main_v52_apply, val_main_v51_apply, hi, val_main_v50_apply, val_main_cst_8_apply,
    Ideal.hostDivf_def, Ideal.ofBits_def, Ideal.ofBits_zero_f32, zero_add, v49_at]
  unfold softmaxRow
  exact congrArg (Ideal.div _) (Finset.sum_congr rfl fun k _ => by rw [hk, v49_at])

/-- Stage 53 is the second attention row. -/
theorem attn2_at (b : Fin 8) (n : Fin 8192) (c : Fin 20) :
    val_main_v53 (F := Ideal) x0 x1 x3 x4 x5 x6 x7 x8 (ix3 b n c) = attn2 x0 x1 x3 x4 x5 x6 x7 x8 b n c := by
  rw [v53_at]
  unfold attn2
  exact congrArg (fun f => softmaxRow f c) (funext fun c' => v42_at x0 x1 x3 x4 x5 x6 x7 x8 b n c')

/-! ## The output: the last contraction -/

/-- Stage 54 at (b, n, e): the projected class values averaged by the second attention row. -/
theorem v54_at (b : Fin 8) (n : Fin 8192) (e : Fin 512) :
    val_main_v54 (F := Ideal) x0 x1 x2 x3 x4 x5 x6 x7 x8 x9 x10 (ix3 b n e)
      = outAt x0 x1 x2 x3 x4 x5 x6 x7 x8 x9 x10 b n e := by
  have hl : ∀ k : Fin 20, lidx_main_v54 (ix3 b n e) k = ix3 b n k := fun k =>
    funext fun a => Fin.ext (by match a with | ⟨0, _⟩ => rfl | ⟨1, _⟩ => rfl | ⟨2, _⟩ => rfl)
  have hr : ∀ k : Fin 20, ridx_main_v54 (ix3 b n e) k = ix3 b k e := fun k =>
    funext fun a => Fin.ext (by match a with | ⟨0, _⟩ => rfl | ⟨1, _⟩ => rfl | ⟨2, _⟩ => rfl)
  rw [val_main_v54_apply]
  unfold outAt
  exact Finset.sum_congr rfl fun k _ => by rw [hl, hr, attn2_at, v11_at]

end Stages

/-- The reference program's result is the specification's output array: every index is (b, n, e), and there stage 54
    is `outAt`. -/
theorem reference_eq_out
    (x0 : (⟨Cert.ReferenceIdeal.S8x8192x512, .f32⟩ : BufTy).Contents (Elt Ideal)) (x1 x2 : (⟨Cert.ReferenceIdeal.S8x20x512, .f32⟩ : BufTy).Contents (Elt Ideal))
    (x3 : (⟨Cert.ReferenceIdeal.S8x1x20, .f32⟩ : BufTy).Contents (Elt Ideal)) (x4 : (⟨Cert.ReferenceIdeal.S8x20x8192, .f32⟩ : BufTy).Contents (Elt Ideal))
    (x5 : (⟨Cert.ReferenceIdeal.S512x512, .f32⟩ : BufTy).Contents (Elt Ideal)) (x6 : (⟨Cert.ReferenceIdeal.S512, .f32⟩ : BufTy).Contents (Elt Ideal))
    (x7 : (⟨Cert.ReferenceIdeal.S512x512, .f32⟩ : BufTy).Contents (Elt Ideal)) (x8 : (⟨Cert.ReferenceIdeal.S512, .f32⟩ : BufTy).Contents (Elt Ideal))
    (x9 : (⟨Cert.ReferenceIdeal.S512x512, .f32⟩ : BufTy).Contents (Elt Ideal)) (x10 : (⟨Cert.ReferenceIdeal.S512, .f32⟩ : BufTy).Contents (Elt Ideal)) :
    Cert.ReferenceIdeal.Read.val_main_v54 (F := Ideal) x0 x1 x2 x3 x4 x5 x6 x7 x8 x9 x10
      = Cert.ClassAttention.out x0 x1 x2 x3 x4 x5 x6 x7 x8 x9 x10 := by
  funext i
  obtain ⟨b, n, e, rfl⟩ : ∃ (b : Fin 8) (n : Fin 8192) (e : Fin 512), i = ix3 b n e := ⟨i 0, i 1, i 2, eq_ix3 i⟩
  exact v54_at x0 x1 x2 x3 x4 x5 x6 x7 x8 x9 x10 b n e

end Cert.ClassAttention.Reference

end
-- ==== Proof.lean ====
/-
  The certificate of a two-stage class attention against its jnp reference, on the extended reals.

  Both programs compute, for every batch b, token n and feature e,

    out[b, n, e] = Σ_c a2[b, n, c] · vp[b, c, e],

  where qp, kp, vp are affine maps of the 512-feature axis applied to the tokens, the 20 class keys and the 20 class
  values; a1 is the softmax over the classes of (qp · kp) · s + mask, with s one f32 word (the nearest to 1/√512) that
  both programs share; g is the softmax over the classes of the coarse prediction of the token; and a2 is the softmax
  over the classes of a1 · g + mask. The kernel does this in two pipelined regions — the class projections, one batch per
  grid point, and the attention, 1024 tokens of one batch per grid point, with the token projection inside it — around two
  host layout steps; the reference is one line of host operations over whole arrays. At the ideal instance a change of
  float format is the identity, a matrix product accumulated from zero is the host's contraction, and a lane reduction
  is the host's reduction over that axis, so both results are ONE function of the argument arrays, index by index
  (`Cert.ClassAttention.out`): no law of arithmetic joins the two sides beyond 0 + s = s, and the finiteness of the inputs is
  never used.

  The frames: the two kernel programs' are their generated frame certificates; the reference's is its generated run with
  the result dropped. The idealization rewrote no operation, so `preserves` has nothing to state.
-/
import proofs.«111245_j30666066494067_1_alg».proof.Defs
import proofs.«111245_j30666066494067_1_alg».proof.Proof.Gen.Kernel
import proofs.«111245_j30666066494067_1_alg».proof.Proof.Gen.Kernel.Skeleton
import proofs.«111245_j30666066494067_1_alg».proof.Proof.Gen.Kernel.Launch
import proofs.«111245_j30666066494067_1_alg».proof.Proof.Gen.Kernel.Points
import proofs.«111245_j30666066494067_1_alg».proof.Proof.Gen.Kernel.Frame
import proofs.«111245_j30666066494067_1_alg».proof.Proof.Gen.KernelIdeal
import proofs.«111245_j30666066494067_1_alg».proof.Proof.Gen.KernelIdeal.Skeleton
import proofs.«111245_j30666066494067_1_alg».proof.Proof.Gen.KernelIdeal.Launch
import proofs.«111245_j30666066494067_1_alg».proof.Proof.Gen.KernelIdeal.Points
import proofs.«111245_j30666066494067_1_alg».proof.Proof.Gen.KernelIdeal.Frame
import proofs.«111245_j30666066494067_1_alg».proof.Proof.Gen.ReferenceIdeal
import proofs.«111245_j30666066494067_1_alg».proof.Proof.Gen.ReferenceIdeal.Run
import proofs.«111245_j30666066494067_1_alg».proof.Proof.Gen.ReferenceIdeal.Read
import proofs.«111245_j30666066494067_1_alg».proof.Proof.Gen.Pre_finite_inputs
import proofs.«111245_j30666066494067_1_alg».proof.Proof.KernelValue
import proofs.«111245_j30666066494067_1_alg».proof.Proof.ReferenceIsSpec
import Idealize.ShloMosaic.Adequacy
import Idealize.ShloMosaic.Init

noncomputable section

namespace Cert.Proof

open Idealize.ShloMosaic Idealize.ShloMosaic.TcCoe Idealize.SL.Sem

/-- The kernel as printed runs to the end, nothing faulting, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result array at the specification's output of the
    arguments: the kernel by its two regions' write-backs, the reference by reading its operations at an index. -/
theorem algebraic : Cert.algebraic_KernelIdeal_ReferenceIdeal := by
  intro m ρ m' ρ' _ hagree
  refine ⟨fun c => Cert.ClassAttention.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), Cert.KernelIdeal.Result.run m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v54_eq, Cert.ClassAttention.Reference.reference_eq_out]
  obtain ⟨a0, a1, a2, a3, a4, a5, a6, a7, a8, a9, a10⟩ := hagree c
  rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
